-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16x4 : Shape := ⟨3, ![131072, 16, 4]⟩
abbrev S4x4 : Shape := ⟨2, ![4, 4]⟩
abbrev S16x4 : Shape := ⟨2, ![16, 4]⟩
abbrev S_ : Shape := ⟨0, ![]⟩

class Facts : Prop where
  bcast_S_S131072x16x4 : S_.BroadcastsInDim S131072x16x4 (![] : Fin 0 → Fin S131072x16x4.rank)
  reducesTo_S131072x16x4_S_d0_1_2 : S131072x16x4.ReducesTo [0, 1, 2] S_
  h_S_ : 0 < S_.numel
  bcast_S_S4x4 : S_.BroadcastsInDim S4x4 (![] : Fin 0 → Fin S4x4.rank)
  reducesTo_S4x4_S_d0_1 : S4x4.ReducesTo [0, 1] S_
  bcast_S_S16x4 : S_.BroadcastsInDim S16x4 (![] : Fin 0 → Fin S16x4.rank)
  reducesTo_S16x4_S_d0_1 : S16x4.ReducesTo [0, 1] S_

variable [Facts]

def fn_part1 {F : FTy → Type} [FloatOps F] (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  main_v18

def fn {F : FTy → Type} [FloatOps F] (main_arg0 : FVec F S131072x16x4 .f32) (main_arg1 : FVec F S4x4 .f32) (main_arg2 : FVec F S4x4 .f32) (main_arg3 : FVec F S16x4 .f32) : IVec S_ 1 :=
  let main_v0 : FVec F S131072x16x4 .f32 := Host.absf main_arg0
  let main_cst : FVec F S_ .f32 := constant S_ .f32 0x7F800000#32
  let main_v1 : FVec F S131072x16x4 .f32 := broadcastInDim S131072x16x4 ![] bcast_S_S131072x16x4 main_cst
  let main_v2 : IVec S131072x16x4 1 := cmpf .olt main_v0 main_v1
  let main_c : IVec S_ 1 := constantI S_ 1 1#1
  let main_v3 : IVec S_ 1 := (fun x v => Host.reduce IntOp.andi x v reducesTo_S131072x16x4_S_d0_1_2 h_S_) main_v2 main_c
  let main_v4 : FVec F S4x4 .f32 := Host.absf main_arg1
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S16x4 .f32 := Host.absf main_arg3
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_v13 main_v16
-- ==== Kernel.lean ====
abbrev S131072x16x4 : Shape := ⟨3, ![131072, 16, 4]⟩
abbrev S4x4 : Shape := ⟨2, ![4, 4]⟩
abbrev S16x4 : Shape := ⟨2, ![16, 4]⟩
abbrev S16x4x1 : Shape := ⟨3, ![16, 4, 1]⟩
abbrev S16x4x128 : Shape := ⟨3, ![16, 4, 128]⟩
abbrev S16x4x131072 : Shape := ⟨3, ![16, 4, 131072]⟩
abbrev S16x4x4096 : Shape := ⟨3, ![16, 4, 4096]⟩
abbrev S1x4x4096 : Shape := ⟨3, ![1, 4, 4096]⟩
abbrev S4x4096 : Shape := ⟨2, ![4, 4096]⟩
abbrev S1x4x128 : Shape := ⟨3, ![1, 4, 128]⟩
abbrev S4x128 : Shape := ⟨2, ![4, 128]⟩
abbrev S4x1 : Shape := ⟨2, ![4, 1]⟩

abbrev nBuf : Space → Nat
  | .hbm => 11
  | .vmem => 6
  | .smem => 0
  | _ => 0

abbrev bufTy : (tb : Table) → Fin (tcTables nBuf tb) → BufTy
  | .hbm, ⟨0, _⟩ => ⟨S131072x16x4, .f32⟩
  | .hbm, ⟨1, _⟩ => ⟨S4x4, .f32⟩
  | .hbm, ⟨2, _⟩ => ⟨S4x4, .f32⟩
  | .hbm, ⟨3, _⟩ => ⟨S16x4, .f32⟩
  | .hbm, ⟨4, _⟩ => ⟨S4x4, .f32⟩
  | .hbm, ⟨5, _⟩ => ⟨S4x4, .f32⟩
  | .hbm, ⟨6, _⟩ => ⟨S16x4x1, .f32⟩
  | .hbm, ⟨7, _⟩ => ⟨S16x4x128, .f32⟩
  | .hbm, ⟨8, _⟩ => ⟨S16x4x131072, .f32⟩
  | .hbm, ⟨9, _⟩ => ⟨S16x4x131072, .f32⟩
  | .hbm, ⟨10, _⟩ => ⟨S131072x16x4, .f32⟩
  | .local _ .vmem, ⟨0, _⟩ => ⟨S4x4, .f32⟩
  | .local _ .vmem, ⟨1, _⟩ => ⟨S16x4x128, .f32⟩
  | .local _ .vmem, ⟨2, _⟩ => ⟨S16x4x4096, .f32⟩
  | .local _ .vmem, ⟨3, _⟩ => ⟨S16x4x4096, .f32⟩
  | .local _ .vmem, ⟨4, _⟩ => ⟨S16x4x4096, .f32⟩
  | .local _ .vmem, ⟨5, _⟩ => ⟨S16x4x4096, .f32⟩
  | _, _ => ⟨S131072x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x4_S4x4_1_0 : S4x4.Transposes [1, 0] S4x4
  bcast_S16x4_S16x4x1_0_1 : S16x4.BroadcastsInDim S16x4x1 (![0, 1] : Fin 2 → Fin S16x4x1.rank)
  bcast_S16x4x1_S16x4x128_0_1_2 : S16x4x1.BroadcastsInDim S16x4x128 (![0, 1, 2] : Fin 3 → Fin S16x4x128.rank)
  transposes_S131072x16x4_S16x4x131072_1_2_0 : S131072x16x4.Transposes [1, 2, 0] S16x4x131072
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S16x4x4096_S1x4x4096_0_0_0 : ∀ a, (![0, 0, 0] : Fin 3 → Nat) a + S1x4x4096.size a ≤ S16x4x4096.size a
  h_S1x4x4096 : 0 < S1x4x4096.numel
  shapeCasts_S1x4x4096_S4x4096 : S1x4x4096.ShapeCasts S4x4096
  inb_S16x4x128_S1x4x128_0_0_0 : ∀ a, (![0, 0, 0] : Fin 3 → Nat) a + S1x4x128.size a ≤ S16x4x128.size a
  h_S1x4x128 : 0 < S1x4x128.numel
  shapeCasts_S1x4x128_S4x128 : S1x4x128.ShapeCasts S4x128
  slices_S4x128_o0_0_S4x1 : S4x128.Slices ![0, 0] S4x1
  shapeCasts_S4x1_S4x1 : S4x1.ShapeCasts S4x1
  broadcasts_S4x1_S4x4096 : S4x1.Broadcasts S4x4096
  shapeCasts_S4x4096_S1x4x4096 : S4x4096.ShapeCasts S1x4x4096
  inb_S16x4x4096_S1x4x4096_1_0_0 : ∀ a, (![1, 0, 0] : Fin 3 → Nat) a + S1x4x4096.size a ≤ S16x4x4096.size a
  inb_S16x4x128_S1x4x128_1_0_0 : ∀ a, (![1, 0, 0] : Fin 3 → Nat) a + S1x4x128.size a ≤ S16x4x128.size a
  inb_S16x4x4096_S1x4x4096_2_0_0 : ∀ a, (![2, 0, 0] : Fin 3 → Nat) a + S1x4x4096.size a ≤ S16x4x4096.size a
  inb_S16x4x128_S1x4x128_2_0_0 : ∀ a, (![2, 0, 0] : Fin 3 → Nat) a + S1x4x128.size a ≤ S16x4x128.size a
  inb_S16x4x4096_S1x4x4096_3_0_0 : ∀ a, (![3, 0, 0] : Fin 3 → Nat) a + S1x4x4096.size a ≤ S16x4x4096.size a
  inb_S16x4x128_S1x4x128_3_0_0 : ∀ a, (![3, 0, 0] : Fin 3 → Nat) a + S1x4x128.size a ≤ S16x4x128.size a
  inb_S16x4x4096_S1x4x4096_4_0_0 : ∀ a, (![4, 0, 0] : Fin 3 → Nat) a + S1x4x4096.size a ≤ S16x4x4096.size a
  inb_S16x4x128_S1x4x128_4_0_0 : ∀ a, (![4, 0, 0] : Fin 3 → Nat) a + S1x4x128.size a ≤ S16x4x128.size a
  inb_S16x4x4096_S1x4x4096_5_0_0 : ∀ a, (![5, 0, 0] : Fin 3 → Nat) a + S1x4x4096.size a ≤ S16x4x4096.size a
  inb_S16x4x128_S1x4x128_5_0_0 : ∀ a, (![5, 0, 0] : Fin 3 → Nat) a + S1x4x128.size a ≤ S16x4x128.size a
  inb_S16x4x4096_S1x4x4096_6_0_0 : ∀ a, (![6, 0, 0] : Fin 3 → Nat) a + S1x4x4096.size a ≤ S16x4x4096.size a
  inb_S16x4x128_S1x4x128_6_0_0 : ∀ a, (![6, 0, 0] : Fin 3 → Nat) a + S1x4x128.size a ≤ S16x4x128.size a
  inb_S16x4x4096_S1x4x4096_7_0_0 : ∀ a, (![7, 0, 0] : Fin 3 → Nat) a + S1x4x4096.size a ≤ S16x4x4096.size a
  inb_S16x4x128_S1x4x128_7_0_0 : ∀ a, (![7, 0, 0] : Fin 3 → Nat) a + S1x4x128.size a ≤ S16x4x128.size a
  inb_S16x4x4096_S1x4x4096_8_0_0 : ∀ a, (![8, 0, 0] : Fin 3 → Nat) a + S1x4x4096.size a ≤ S16x4x4096.size a
  inb_S16x4x128_S1x4x128_8_0_0 : ∀ a, (![8, 0, 0] : Fin 3 → Nat) a + S1x4x128.size a ≤ S16x4x128.size a
  inb_S16x4x4096_S1x4x4096_9_0_0 : ∀ a, (![9, 0, 0] : Fin 3 → Nat) a + S1x4x4096.size a ≤ S16x4x4096.size a
  inb_S16x4x128_S1x4x128_9_0_0 : ∀ a, (![9, 0, 0] : Fin 3 → Nat) a + S1x4x128.size a ≤ S16x4x128.size a
  inb_S16x4x4096_S1x4x4096_10_0_0 : ∀ a, (![10, 0, 0] : Fin 3 → Nat) a + S1x4x4096.size a ≤ S16x4x4096.size a
  inb_S16x4x128_S1x4x128_10_0_0 : ∀ a, (![10, 0, 0] : Fin 3 → Nat) a + S1x4x128.size a ≤ S16x4x128.size a
  inb_S16x4x4096_S1x4x4096_11_0_0 : ∀ a, (![11, 0, 0] : Fin 3 → Nat) a + S1x4x4096.size a ≤ S16x4x4096.size a
  inb_S16x4x128_S1x4x128_11_0_0 : ∀ a, (![11, 0, 0] : Fin 3 → Nat) a + S1x4x128.size a ≤ S16x4x128.size a
  inb_S16x4x4096_S1x4x4096_12_0_0 : ∀ a, (![12, 0, 0] : Fin 3 → Nat) a + S1x4x4096.size a ≤ S16x4x4096.size a
  inb_S16x4x128_S1x4x128_12_0_0 : ∀ a, (![12, 0, 0] : Fin 3 → Nat) a + S1x4x128.size a ≤ S16x4x128.size a
  inb_S16x4x4096_S1x4x4096_13_0_0 : ∀ a, (![13, 0, 0] : Fin 3 → Nat) a + S1x4x4096.size a ≤ S16x4x4096.size a
  inb_S16x4x128_S1x4x128_13_0_0 : ∀ a, (![13, 0, 0] : Fin 3 → Nat) a + S1x4x128.size a ≤ S16x4x128.size a
  inb_S16x4x4096_S1x4x4096_14_0_0 : ∀ a, (![14, 0, 0] : Fin 3 → Nat) a + S1x4x4096.size a ≤ S16x4x4096.size a
  inb_S16x4x128_S1x4x128_14_0_0 : ∀ a, (![14, 0, 0] : Fin 3 → Nat) a + S1x4x128.size a ≤ S16x4x128.size a
  inb_S16x4x4096_S1x4x4096_15_0_0 : ∀ a, (![15, 0, 0] : Fin 3 → Nat) a + S1x4x4096.size a ≤ S16x4x4096.size a
  inb_S16x4x128_S1x4x128_15_0_0 : ∀ a, (![15, 0, 0] : Fin 3 → Nat) a + S1x4x128.size a ≤ S16x4x128.size a
  transposes_S16x4x131072_S131072x16x4_2_0_1 : S16x4x131072.Transposes [2, 0, 1] S131072x16x4
  dot_S4x4_S4x4_S4x4_1_0_0_1_n_n_wf : DotDims.WF S4x4 S4x4 S4x4 [1] [0] [0] [1] [] []
  dot_S4x4_S4x4096_S4x4096_1_0_0_1_n_n_wf : DotDims.WF S4x4 S4x4096 S4x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4.size a ≤ S4x4.size a
  hwx0_0 : ∀ i : grid0.Coords, EltTy.bits .f32 = 32 ∨ (Rect.block (s := S4x4) S4x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4x128.size a ≤ S16x4x128.size a
  hwx0_1 : ∀ i : grid0.Coords, EltTy.bits .f32 = 32 ∨ (Rect.block (s := S16x4x128) S16x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4x4096.size a ≤ S16x4x131072.size a
  hwx0_2 : ∀ i : grid0.Coords, EltTy.bits .f32 = 32 ∨ (Rect.block (s := S16x4x131072) S16x4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4x4096.size a ≤ S16x4x131072.size a
  hwx0_3 : ∀ i : grid0.Coords, EltTy.bits .f32 = 32 ∨ (Rect.block (s := S16x4x131072) S16x4x4096.size (cc0_transform_3 i) (hinb0_3 i)).WholeWords (EltTy.packing .f32)

variable [Facts₀]

def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def dot_S4x4_S4x4096_S4x4096_1_0_0_1_n_n : DotDims S4x4 S4x4096 S4x4096 where
  lhsContracting := [1]
  rhsContracting := [0]
  lhsNonContracting := [0]
  rhsNonContracting := [1]
  lhsBatch := []
  rhsBatch := []
  wf := dot_S4x4_S4x4096_S4x4096_1_0_0_1_n_n_wf

abbrev win0_0 : Pipeline.Window sig grid0 :=
  Pipeline.Window.ofSpec (Memref.whole main_v1) S4x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x4x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x16x4 : Shape := ⟨3, ![131072, 16, 4]⟩
abbrev S4x4 : Shape := ⟨2, ![4, 4]⟩
abbrev S16x4 : Shape := ⟨2, ![16, 4]⟩
abbrev S_ : Shape := ⟨0, ![]⟩
abbrev S8x8 : Shape := ⟨2, ![8, 8]⟩
abbrev S1 : Shape := ⟨1, ![1]⟩
abbrev S2 : Shape := ⟨1, ![2]⟩
abbrev S2097152x4 : Shape := ⟨2, ![2097152, 4]⟩
abbrev S1048576x8 : Shape := ⟨2, ![1048576, 8]⟩
abbrev S8x1048576 : Shape := ⟨2, ![8, 1048576]⟩
abbrev S1x16x1x4 : Shape := ⟨4, ![1, 16, 1, 4]⟩
abbrev S4096x16x1x4 : Shape := ⟨4, ![4096, 16, 1, 4]⟩
abbrev S65536x4 : Shape := ⟨2, ![65536, 4]⟩
abbrev S32768x8 : Shape := ⟨2, ![32768, 8]⟩
abbrev S8x32768 : Shape := ⟨2, ![8, 32768]⟩

abbrev nBuf : Space → Nat
  | .hbm => 32
  | .vmem => 6
  | .smem => 0
  | _ => 0

abbrev bufTy : (tb : Table) → Fin (tcTables nBuf tb) → BufTy
  | .hbm, ⟨0, _⟩ => ⟨S131072x16x4, .f32⟩
  | .hbm, ⟨1, _⟩ => ⟨S4x4, .f32⟩
  | .hbm, ⟨2, _⟩ => ⟨S4x4, .f32⟩
  | .hbm, ⟨3, _⟩ => ⟨S16x4, .f32⟩
  | .hbm, ⟨4, _⟩ => ⟨S4x4, .f32⟩
  | .hbm, ⟨5, _⟩ => ⟨S4x4, .f32⟩
  | .hbm, ⟨6, _⟩ => ⟨S_, .f32⟩
  | .hbm, ⟨7, _⟩ => ⟨S8x8, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S8x8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x8, .f32⟩
  | .hbm, ⟨20, _⟩ => ⟨S2097152x4, .f32⟩
  | .hbm, ⟨21, _⟩ => ⟨S1048576x8, .f32⟩
  | .hbm, ⟨22, _⟩ => ⟨S8x1048576, .f32⟩
  | .hbm, ⟨23, _⟩ => ⟨S1x16x1x4, .f32⟩
  | .hbm, ⟨24, _⟩ => ⟨S4096x16x1x4, .f32⟩
  | .hbm, ⟨25, _⟩ => ⟨S65536x4, .f32⟩
  | .hbm, ⟨26, _⟩ => ⟨S32768x8, .f32⟩
  | .hbm, ⟨27, _⟩ => ⟨S8x32768, .f32⟩
  | .hbm, ⟨28, _⟩ => ⟨S8x1048576, .f32⟩
  | .hbm, ⟨29, _⟩ => ⟨S1048576x8, .f32⟩
  | .hbm, ⟨30, _⟩ => ⟨S2097152x4, .f32⟩
  | .hbm, ⟨31, _⟩ => ⟨S131072x16x4, .f32⟩
  | .local _ .vmem, ⟨0, _⟩ => ⟨S8x8, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S8x32768, .f32⟩
  | .local _ .vmem, ⟨5, _⟩ => ⟨S8x32768, .f32⟩
  | _, _ => ⟨S131072x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x4_S4x4_1_0 : S4x4.Transposes [1, 0] S4x4
  bcast_S_S8x8 : S_.BroadcastsInDim S8x8 (![] : Fin 0 → Fin S8x8.rank)
  bcast_S_S1 : S_.BroadcastsInDim S1 (![] : Fin 0 → Fin S1.rank)
  concatenates_S1_S1_S2_d0 : Shape.Concatenates [S1, S1] S2 0
  shapeCasts_S131072x16x4_S2097152x4 : S131072x16x4.ShapeCasts S2097152x4
  shapeCasts_S2097152x4_S1048576x8 : S2097152x4.ShapeCasts S1048576x8
  transposes_S1048576x8_S8x1048576_1_0 : S1048576x8.Transposes [1, 0] S8x1048576
  shapeCasts_S16x4_S1x16x1x4 : S16x4.ShapeCasts S1x16x1x4
  bcast_S1x16x1x4_S4096x16x1x4_0_1_2_3 : S1x16x1x4.BroadcastsInDim S4096x16x1x4 (![0, 1, 2, 3] : Fin 4 → Fin S4096x16x1x4.rank)
  shapeCasts_S4096x16x1x4_S65536x4 : S4096x16x1x4.ShapeCasts S65536x4
  shapeCasts_S65536x4_S32768x8 : S65536x4.ShapeCasts S32768x8
  transposes_S32768x8_S8x32768_1_0 : S32768x8.Transposes [1, 0] S8x32768
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  transposes_S8x1048576_S1048576x8_1_0 : S8x1048576.Transposes [1, 0] S1048576x8
  shapeCasts_S1048576x8_S2097152x4 : S1048576x8.ShapeCasts S2097152x4
  shapeCasts_S2097152x4_S131072x16x4 : S2097152x4.ShapeCasts S131072x16x4
  dot_S4x4_S4x4_S4x4_1_0_0_1_n_n_wf : DotDims.WF S4x4 S4x4 S4x4 [1] [0] [0] [1] [] []
  scatter_S8x8_S2_S4x4_01_n_01_0_wf : ScatterDims.WF S8x8 S2 S4x4 [0, 1] [] [0, 1] 0
  dot_S8x8_S8x32768_S8x32768_1_0_0_1_n_n_wf : DotDims.WF S8x8 S8x32768 S8x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8.size a ≤ S8x8.size a
  hwx0_0 : ∀ i : grid0.Coords, EltTy.bits .f32 = 32 ∨ (Rect.block (s := S8x8) S8x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x32768.size a
  hwx0_1 : ∀ i : grid0.Coords, EltTy.bits .f32 = 32 ∨ (Rect.block (s := S8x32768) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32768.size a ≤ S8x1048576.size a
  hwx0_2 : ∀ i : grid0.Coords, EltTy.bits .f32 = 32 ∨ (Rect.block (s := S8x1048576) S8x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S8x1048576.size a
  hwx0_3 : ∀ i : grid0.Coords, EltTy.bits .f32 = 32 ∨ (Rect.block (s := S8x1048576) S8x32768.size (cc0_transform_3 i) (hinb0_3 i)).WholeWords (EltTy.packing .f32)

variable [Facts₀]

def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def scatter_S8x8_S2_S4x4_01_n_01_0 : ScatterDims S8x8 S2 S4x4 where
  updateWindowDims := [0, 1]
  insertedWindowDims := []
  scatterDimsToOperandDims := [0, 1]
  indexVectorDim := 0
  wf := scatter_S8x8_S2_S4x4_01_n_01_0_wf
def dot_S8x8_S8x32768_S8x32768_1_0_0_1_n_n : DotDims S8x8 S8x32768 S8x32768 where
  lhsContracting := [1]
  rhsContracting := [0]
  lhsNonContracting := [0]
  rhsNonContracting := [1]
  lhsBatch := []
  rhsBatch := []
  wf := dot_S8x8_S8x32768_S8x32768_1_0_0_1_n_n_wf

abbrev win0_0 : Pipeline.Window sig grid0 :=
  Pipeline.Window.ofSpec (Memref.whole main_v10) S8x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The weight layer as one function of its four arguments, entry by entry, on the extended reals.

  For an input x of shape [B, T, C] = [131072, 16, 4], two C×C parameter matrices a and w and a bias of shape [T, C],
  the layer is relu(x · (a · w) + bias): with M = a · w,

      layer(b, t, c) = max( ∑ k < 4, M(k, c) · x(b, t, k) + bias(t, c), 0 ).

  Both programs hold M transposed, mixT(c, k) = M(k, c) = ∑ j < 4, a(k, j) · w(j, c), as the left factor of their
  products. Also here: the one law of sums the two programs differ by. A product with a block-diagonal 8×8 matrix whose
  two diagonal blocks are the same 4×4 matrix splits, row by row, into the 4-term product with that matrix over the
  row's own half of the column vector; the four terms of the other half have the factor 0 and vanish (0 · y = 0 for
  every extended real y), so no finiteness is needed.
-/
import Idealize.ShloMosaic.Lib.ValueIdx
import Idealize.ShloMosaic.PureOps.Ideal.Laws

noncomputable section

open scoped BigOperators

namespace Cert.WeightLayer

open Idealize.ShloMosaic Idealize.ShloMosaic.ValueIdx

/-- The shapes of the input (and of the result), of a parameter matrix, and of the bias. -/
abbrev SX : Shape := ⟨3, ![131072, 16, 4]⟩
abbrev SM : Shape := ⟨2, ![4, 4]⟩
abbrev SB : Shape := ⟨2, ![16, 4]⟩

/-- The transposed product of the parameter matrices: entry (c, k) of (a · w)ᵀ. -/
def mixT (a w : SM.Idx → EReal) (c k : Fin 4) : EReal := ∑ j : Fin 4, a (ix2 k j) * w (ix2 j c)

/-- One entry of the layer's result. -/
def entry (x : SX.Idx → EReal) (a w : SM.Idx → EReal) (bias : SB.Idx → EReal) (b : Fin 131072) (t : Fin 16) (c : Fin 4) :
    EReal :=
  max ((∑ k : Fin 4, mixT a w c k * x (ix3 b t k)) + bias (ix2 t c)) 0

/-- The layer's result as one array. -/
def layer (x : SX.Idx → EReal) (a w : SM.Idx → EReal) (bias : SB.Idx → EReal) : SX.Idx → EReal :=
  fun i => entry x a w bias (i 0) (i 1) (i 2)

theorem layer_apply (x : SX.Idx → EReal) (a w : SM.Idx → EReal) (bias : SB.Idx → EReal) (b : Fin 131072) (t : Fin 16)
    (c : Fin 4) : layer x a w bias (ix3 b t c) = entry x a w bias b t c := rfl

/-- Position 4·q + k of an 8-vector: entry k of its half q. -/
abbrev at8 (q : Fin 2) (k : Fin 4) : Fin 8 := ⟨4 * q.val + k.val, by omega⟩

/-- A row of a block-diagonal 8×8 matrix (D, with both diagonal blocks the row M of a 4×4 matrix) times an 8-vector X is
    the 4-term product of M with the half of X that the row's block sits over. -/
theorem blockdiag_sum (M : Fin 4 → EReal) (X D : Fin 8 → EReal) (p : Fin 2)
    (hD : ∀ (q : Fin 2) (k : Fin 4), D (at8 q k) = if p = q then M k else 0) :
    ∑ j : Fin 8, D j * X j = ∑ k : Fin 4, M k * X (at8 p k) := by
  have h00 := hD 0 0; have h01 := hD 0 1; have h02 := hD 0 2; have h03 := hD 0 3
  have h10 := hD 1 0; have h11 := hD 1 1; have h12 := hD 1 2; have h13 := hD 1 3
  rw [Fin.sum_univ_eight, Fin.sum_univ_four]
  change D (at8 0 0) * X (at8 0 0) + D (at8 0 1) * X (at8 0 1) + D (at8 0 2) * X (at8 0 2) + D (at8 0 3) * X (at8 0 3)
      + D (at8 1 0) * X (at8 1 0) + D (at8 1 1) * X (at8 1 1) + D (at8 1 2) * X (at8 1 2) + D (at8 1 3) * X (at8 1 3) = _
  rw [h00, h01, h02, h03, h10, h11, h12, h13]
  fin_cases p
  · simp
  · simp

end Cert.WeightLayer

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.KHost.lean ====
/-
  The arrays the region finds, read entry by entry.

  Before the region the host computes three arrays from the arguments x : [131072,16,4], a, w : [4,4] and bias : [16,4]:

    * the transposed product of the two parameter matrices, held as a [4,4] array whose entry (o, k) is
      mixT(o, k) = ∑ j, a(k, j) · w(j, o);
    * the bias spread along a new last axis of 128 lanes: entry (t, o, l) is bias(t, o), whatever the lane l;
    * the input with its batch axis moved last: entry (t, k, b) is x(b, t, k).

  Each is a composition of layout operations and one matrix product, so each entry is one entry of an argument (or the
  four-term sum of the product).
-/
import proofs.«136572_g2000209335200470_pallasbulk_1332_3_alg».proof.Proof.Gen.KernelIdeal.Frame
import proofs.«136572_g2000209335200470_pallasbulk_1332_3_alg».proof.Proof.Spec
import proofs.«136572_g2000209335200470_pallasbulk_1332_3_alg».proof.Proof.LibPlainDot
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.KernelIdeal Cert.KernelIdeal.Gen Cert.WeightLayer

namespace Cert.KernelIdeal.Host

variable (m : (ℓ : Loc nD τ sig) → Buf (Elt Ideal) ℓ) (c : Dev nD)

/-- The input with the batch axis moved last, as an array. -/
theorem moved_eq : (V m c main_v4 : S16x4x131072.Idx → EReal)
    = transpose S16x4x131072 [1, 2, 0] (m ((c : Thread nD τ).loc main_arg0)) Facts₀.transposes_S131072x16x4_S16x4x131072_1_2_0 := by
  show StableHlo.after hostOps0 (fun b => m (c, b)) (Proc.devRef .tc main_v4) = _
  after_results

/-- Its entry (t, k, b) is x(b, t, k). -/
theorem moved_apply (t : Fin 16) (k : Fin 4) (b : Fin 131072) :
    (V m c main_v4 : S16x4x131072.Idx → EReal) (ix3 t k b)
      = (m ((c : Thread nD τ).loc main_arg0) : S131072x16x4.Idx → EReal) (ix3 b t k) := by
  rw [moved_eq]
  exact transpose_apply _ _ _ (ix3 t k b) (ix3 b t k) (fun a => match a with | ⟨0, _⟩ => rfl | ⟨1, _⟩ => rfl | ⟨2, _⟩ => rfl)

/-- The transposed product of the parameter matrices, as an array. -/
theorem mix_eq : (V m c main_v1 : S4x4.Idx → EReal)
    = transpose S4x4 [1, 0] (Host.dotGeneral (F := Ideal) (φ₁ := .f32) (φ₂ := .f32) dot_S4x4_S4x4_S4x4_1_0_0_1_n_n (some .fp32)
        (m ((c : Thread nD τ).loc main_arg1) : FVec Ideal S4x4 .f32) (m ((c : Thread nD τ).loc main_arg2) : FVec Ideal S4x4 .f32))
        Facts₀.transposes_S4x4_S4x4_1_0 := by
  show StableHlo.after hostOps0 (fun b => m (c, b)) (Proc.devRef .tc main_v1) = _
  after_results

/-- Its entry (o, k) is mixT(o, k). -/
theorem mix_apply (o k : Fin 4) :
    (V m c main_v1 : S4x4.Idx → EReal) (ix2 o k)
      = mixT (m ((c : Thread nD τ).loc main_arg1)) (m ((c : Thread nD τ).loc main_arg2)) o k := by
  rw [mix_eq]
  refine (transpose_apply _ _ _ (ix2 o k) (ix2 k o) (fun a => match a with | ⟨0, _⟩ => rfl | ⟨1, _⟩ => rfl)).trans ?_
  exact Cert.LibPlainDot.dotGeneral_apply (n := 4) (a := 4) (b := 4) (some .fp32) _ _ k o

/-- The bias spread over the lanes, as an array: two broadcasts, first to a unit last axis, then to 128 lanes. -/
theorem lanes_eq : (V m c main_v3 : S16x4x128.Idx → EReal)
    = broadcastInDim S16x4x128 ![0, 1, 2] Facts₀.bcast_S16x4x1_S16x4x128_0_1_2
        (broadcastInDim S16x4x1 ![0, 1] Facts₀.bcast_S16x4_S16x4x1_0_1
          (m ((c : Thread nD τ).loc main_arg3) : S16x4.Idx → EReal)) := by
  show StableHlo.after hostOps0 (fun b => m (c, b)) (Proc.devRef .tc main_v3) = _
  after_results

/-- Its entry (t, o, l) is bias(t, o). -/
theorem lanes_apply (t : Fin 16) (o : Fin 4) (l : Fin 128) :
    (V m c main_v3 : S16x4x128.Idx → EReal) (ix3 t o l)
      = (m ((c : Thread nD τ).loc main_arg3) : S16x4.Idx → EReal) (ix2 t o) := by
  rw [lanes_eq]
  refine (broadcastInDim_apply _ _ _ (ix3 t o l) (ix3 t o (0 : Fin 1))
    (fun a => match a with | ⟨0, _⟩ => rfl | ⟨1, _⟩ => rfl | ⟨2, _⟩ => rfl)).trans ?_
  exact broadcastInDim_apply _ _ _ (ix3 t o (0 : Fin 1)) (ix2 t o)
    (fun a => match a with | ⟨0, _⟩ => rfl | ⟨1, _⟩ => rfl)

end Cert.KernelIdeal.Host

end
-- ==== Proof.KRow.lean ====
/-
  One row of the body's output block.

  For each of the 16 rows t of its blocks the body computes, from the 4×4 matrix M held in the first window, the row's
  [1,4,4096] slab X of the input block and the row's [1,4,128] slab B of the bias block, the slab

      row(M, X, B)(0, o, l) = max( ∑ k < 4, M(o, k) · X(0, k, l) + B(0, o, 0), 0 ):

  a 4×4 by 4×4096 matrix product into the zero accumulator, plus the first lane of the bias slab spread along the 4096
  columns, clamped below at zero. The printed program spells this out 16 times (sometimes cut in two pieces); every one
  of the 16 spellings unfolds to the one function below.
-/
import proofs.«136572_g2000209335200470_pallasbulk_1332_3_alg».proof.Proof.Gen.KernelIdeal.Skeleton
import proofs.«136572_g2000209335200470_pallasbulk_1332_3_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.SL.Sem Idealize.ShloMosaic.ValueIdx
open Cert.KernelIdeal Cert.KernelIdeal.Gen

namespace Cert.KernelIdeal.Row

/-- The first lane of a bias slab, as a 4×1 column spread along 4096 columns. -/
def biasCols (B : Vec Ideal S1x4x128 .f32) : FVec Ideal S4x4096 .f32 :=
  broadcastTo S4x4096
    (shapeCast S4x1
      (extractStridedSlice S4x1 ![0, 0] (shapeCast S4x128 B Facts₀.shapeCasts_S1x4x128_S4x128 : FVec Ideal S4x128 .f32)
        Facts₀.slices_S4x128_o0_0_S4x1 : FVec Ideal S4x1 .f32)
      Facts₀.shapeCasts_S4x1_S4x1)
    Facts₀.broadcasts_S4x1_S4x4096

/-- The matrix product of the 4×4 matrix with a slab of the input block viewed as 4×4096. -/
def prod (M : FVec Ideal S4x4 .f32) (X : Vec Ideal S1x4x4096 .f32) : FVec Ideal S4x4096 .f32 :=
  matmul dot_S4x4_S4x4096_S4x4096_1_0_0_1_n_n none M
    (shapeCast S4x4096 X Facts₀.shapeCasts_S1x4x4096_S4x4096 : FVec Ideal S4x4096 .f32) (constant S4x4096 .f32 0x00000000#32)

/-- One row of the output block, as the body computes it. -/
def row (M : FVec Ideal S4x4 .f32) (X : Vec Ideal S1x4x4096 .f32) (B : Vec Ideal S1x4x128 .f32) : FVec Ideal S1x4x4096 .f32 :=
  shapeCast S1x4x4096
    (maximumf (addf (prod M X) (biasCols B)) (broadcast S4x4096 (Scalar.ofBits .f32 0x00000000#32)))
    Facts₀.shapeCasts_S4x4096_S1x4x4096

/-! ## The 16 printed spellings are this one function -/

section Spellings
variable (v0 : Vec Ideal S4x4 .f32) (M : FVec Ideal S4x4 .f32) (X : Vec Ideal S1x4x4096 .f32) (B : Vec Ideal S1x4x128 .f32)

theorem pay2_eq : k0_pay2 v0 X B = row (k0_pay1 v0) X B := rfl
theorem pay3_eq : k0_pay3 v0 X B = row (k0_pay1 v0) X B := rfl
theorem pay4_eq : k0_pay4 M X B = row M X B := rfl
theorem pay5_eq : k0_pay5 M X B = row M X B := rfl
theorem pay7_eq : k0_pay7 (k0_pay6 M X) B = row M X B := rfl
theorem pay8_eq : k0_pay8 M X B = row M X B := rfl
theorem pay10_eq : k0_pay10 (k0_pay9 M X B) = row M X B := rfl
theorem pay11_eq : k0_pay11 M X B = row M X B := rfl
theorem pay12_eq : k0_pay12 M X B = row M X B := rfl
theorem pay13_eq : k0_pay13 M X B = row M X B := rfl
theorem pay14_eq : k0_pay14 M X B = row M X B := rfl
theorem pay16_eq : k0_pay16 (k0_pay15 M X) B = row M X B := rfl
theorem pay17_eq : k0_pay17 M X B = row M X B := rfl
theorem pay19_eq : k0_pay19 (k0_pay18 M X B) (Scalar.ofBits .f32 0x00000000#32) = row M X B := rfl
theorem pay20_eq : k0_pay20 M X B = row M X B := rfl
theorem pay21_eq : k0_pay21 M X B = row M X B := rfl

/-- The body's first step, a shape cast of the matrix to its own shape, changes nothing. -/
theorem pay1_eq : k0_pay1 v0 = v0 := shapeCast_self v0 _

end Spellings

/-! ## The row at an entry -/

variable (M : FVec Ideal S4x4 .f32) (X : Vec Ideal S1x4x4096 .f32) (B : Vec Ideal S1x4x128 .f32)

/-- The product at entry (o, l): the four-term sum along the shared axis. -/
theorem prod_apply (o : Fin 4) (l : Fin 4096) :
    prod M X (ix2 o l) = ∑ k : Fin 4, M (ix2 o k) * X (ix3 (0 : Fin 1) k l) := by
  unfold prod
  refine (Cert.LibPlainDot.matmul_zero_apply (n := 4) (a := 4) (b := 4096) none M _ o l).trans ?_
  refine Finset.sum_congr rfl fun k _ => ?_
  congr 1
  exact (shapeCast_dropUnit_apply ![4, 4096] X _ (ix2 k l)).trans
    (congrArg X (funext fun a => match a with | ⟨0, _⟩ => rfl | ⟨1, _⟩ => rfl | ⟨2, _⟩ => rfl))

/-- The spread bias column at entry (o, l): the slab's first lane in row o. -/
theorem biasCols_apply (o : Fin 4) (l : Fin 4096) : biasCols B (ix2 o l) = B (ix3 (0 : Fin 1) o (0 : Fin 128)) := by
  unfold biasCols
  refine (broadcastTo_apply _ _ (ix2 o l) (ix2 o (0 : Fin 1))
    (fun a => match a with | ⟨0, _⟩ => rfl | ⟨1, _⟩ => rfl)).trans ?_
  rw [shapeCast_self]
  refine (extractStridedSlice_apply _ _ _ (ix2 o (0 : Fin 1)) (ix2 o (0 : Fin 128))
    (fun a => match a with | ⟨0, _⟩ => by show o.val = 0 + o.val; omega | ⟨1, _⟩ => rfl)).trans ?_
  exact (shapeCast_dropUnit_apply ![4, 128] B _ (ix2 o (0 : Fin 128))).trans
    (congrArg B (funext fun a => match a with | ⟨0, _⟩ => rfl | ⟨1, _⟩ => rfl | ⟨2, _⟩ => rfl))

/-- The row at entry (0, o, l). -/
theorem row_apply (u : Fin 1) (o : Fin 4) (l : Fin 4096) :
    row M X B (ix3 u o l)
      = max ((∑ k : Fin 4, M (ix2 o k) * X (ix3 (0 : Fin 1) k l)) + B (ix3 (0 : Fin 1) o (0 : Fin 128))) 0 := by
  unfold row
  have hi : ((fun a => ix3 u o l a.succ) : (⟨2, ![4, 4096]⟩ : Shape).Idx) = ix2 o l :=
    funext fun a => match a with | ⟨0, _⟩ => rfl | ⟨1, _⟩ => rfl
  refine ((shapeCast_addUnit_apply ![4, 4096] _ _ (ix3 u o l)).trans (congrArg _ hi)).trans ?_
  show max (prod M X (ix2 o l) + biasCols B (ix2 o l)) (Ideal.ofBits .f32 0x00000000#32) = _
  rw [prod_apply, biasCols_apply, Ideal.ofBits_zero_f32]

end Cert.KernelIdeal.Row

end
-- ==== Proof.KBlock.lean ====
/-
  The body's output block, entry by entry.

  The body reads the 4×4 matrix M (first window), the bias block B : [16,4,128] (second window) and the input block
  X : [16,4,4096] (third window), and stores, for each of the 16 rows t, the slab row(M, X[t], B[t]) into row t of the
  output block. The 16 stores tile the block, so the block it leaves is the one function

      block(M, B, X)(t, o, l) = max( ∑ k < 4, M(o, k) · X(t, k, l) + B(t, o, 0), 0 ).
-/
import proofs.«136572_g2000209335200470_pallasbulk_1332_3_alg».proof.Proof.Gen.KernelIdeal.Frame
import proofs.«136572_g2000209335200470_pallasbulk_1332_3_alg».proof.Proof.KRow

set_option maxRecDepth 16384

noncomputable section

open scoped BigOperators
open Idealize.ShloMosaic Idealize.SL.Sem Idealize.ShloMosaic.ValueIdx
open Cert.KernelIdeal Cert.KernelIdeal.Gen

namespace Cert.KernelIdeal.Block

/-- The output block as one function of the three input blocks. -/
def block (x0 : Vec Ideal S4x4 .f32) (x1 : Vec Ideal S16x4x128 .f32) (x2 : Vec Ideal S16x4x4096 .f32) :
    S16x4x4096.Idx → EReal :=
  fun y => max ((∑ k : Fin 4, x0 (ix2 (y 1) k) * x2 (ix3 (y 0) k (y 2))) + x1 (ix3 (y 0) (y 1) (0 : Fin 128))) 0

theorem block_apply (x0 : Vec Ideal S4x4 .f32) (x1 : Vec Ideal S16x4x128 .f32) (x2 : Vec Ideal S16x4x4096 .f32)
    (t : Fin 16) (o : Fin 4) (l : Fin 4096) :
    block x0 x1 x2 (ix3 t o l)
      = max ((∑ k : Fin 4, x0 (ix2 o k) * x2 (ix3 t k l)) + x1 (ix3 t o (0 : Fin 128))) 0 := rfl

/-- Row t's store: the slab computed from row t of the input block and row t of the bias block is row t of `block`.
    The two rectangles are the unit-stride ones at offsets (t, 0, 0), of one row each. -/
theorem row_piece (t : Fin 16) (offX offB : Fin 3 → ℕ) (hX : offX = ![t.val, 0, 0]) (hB : offB = ![t.val, 0, 0])
    (inbX : ∀ a, offX a + S1x4x4096.size a ≤ S16x4x4096.size a) (inbB : ∀ a, offB a + S1x4x128.size a ≤ S16x4x128.size a)
    (M : FVec Ideal S4x4 .f32) (x0 : Vec Ideal S4x4 .f32) (hM : M = x0)
    (x1 : Vec Ideal S16x4x128 .f32) (x2 : Vec Ideal S16x4x4096 .f32) (x : S1x4x4096.Idx) :
    Row.row M (View.ld x2 (Rect.unit (s := S16x4x4096) offX S1x4x4096.size inbX))
        (View.ld x1 (Rect.unit (s := S16x4x128) offB S1x4x128.size inbB)) x
      = block x0 x1 x2 ((Rect.unit (s := S16x4x4096) offX S1x4x4096.size inbX).emb x) := by
  subst hX hB hM
  obtain ⟨u, o, l, rfl⟩ : ∃ (u : Fin 1) (o : Fin 4) (l : Fin 4096), x = ix3 u o l := ⟨x 0, x 1, x 2, eq_ix3 x⟩
  have hu : u.val = 0 := by omega
  have hy : (Rect.unit (s := S16x4x4096) ![t.val, 0, 0] S1x4x4096.size inbX).emb (ix3 u o l) = ix3 t o l :=
    funext fun a => Fin.ext (by
      match a with
      | ⟨0, _⟩ => show t.val + 1 * u.val = t.val; omega
      | ⟨1, _⟩ => show 0 + 1 * o.val = o.val; omega
      | ⟨2, _⟩ => show 0 + 1 * l.val = l.val; omega)
  have hx : ∀ k : Fin 4, View.ld x2 (Rect.unit (s := S16x4x4096) ![t.val, 0, 0] S1x4x4096.size inbX) (ix3 (0 : Fin 1) k l)
      = x2 (ix3 t k l) := fun k => congrArg x2 (funext fun a => Fin.ext (by
      match a with
      | ⟨0, _⟩ => show t.val + 1 * 0 = t.val; omega
      | ⟨1, _⟩ => show 0 + 1 * k.val = k.val; omega
      | ⟨2, _⟩ => show 0 + 1 * l.val = l.val; omega))
  have hb : View.ld x1 (Rect.unit (s := S16x4x128) ![t.val, 0, 0] S1x4x128.size inbB) (ix3 (0 : Fin 1) o (0 : Fin 128))
      = x1 (ix3 t o (0 : Fin 128)) := congrArg x1 (funext fun a => Fin.ext (by
      match a with
      | ⟨0, _⟩ => show t.val + 1 * 0 = t.val; omega
      | ⟨1, _⟩ => show 0 + 1 * o.val = o.val; omega
      | ⟨2, _⟩ => show 0 + 1 * 0 = 0; omega))
  rw [Row.row_apply, hy, block_apply, hb]
  simp only [hx]

theorem zero2 : (![0, 0] : Fin 2 → ℕ) = fun _ => 0 := funext fun a => by fin_cases a <;> rfl

/-- THE BLOCK THE BODY LEAVES is `block` of the three input blocks. -/
theorem out_eq (x0 : Vec Ideal S4x4 .f32) (x1 : Vec Ideal S16x4x128 .f32) (x2 : Vec Ideal S16x4x4096 .f32) :
    out0_3 x0 x1 x2 = block x0 x1 x2 := by
  funext y
  have hM : k0_pay1 (View.ld x0 r0_0) = x0 := (Row.pay1_eq _).trans (View.ld_unit_zero (S := S4x4) zero2 _ x0)
  unfold out0_3
  refine View.canon_apply_of_pieces (Val := Elt Ideal) (S := S16x4x4096) (e := .f32) (block x0 x1 x2) _ ?_ y (cover0_3 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun x => (congrFun (Row.pay21_eq _ _ _) x).trans (row_piece 15 _ _ rfl rfl _ _ _ x0 hM x1 x2 x)
  · exact fun x => (congrFun (Row.pay20_eq _ _ _) x).trans (row_piece 14 _ _ rfl rfl _ _ _ x0 hM x1 x2 x)
  · exact fun x => (congrFun (Row.pay19_eq _ _ _) x).trans (row_piece 13 _ _ rfl rfl _ _ _ x0 hM x1 x2 x)
  · exact fun x => (congrFun (Row.pay17_eq _ _ _) x).trans (row_piece 12 _ _ rfl rfl _ _ _ x0 hM x1 x2 x)
  · exact fun x => (congrFun (Row.pay16_eq _ _ _) x).trans (row_piece 11 _ _ rfl rfl _ _ _ x0 hM x1 x2 x)
  · exact fun x => (congrFun (Row.pay14_eq _ _ _) x).trans (row_piece 10 _ _ rfl rfl _ _ _ x0 hM x1 x2 x)
  · exact fun x => (congrFun (Row.pay13_eq _ _ _) x).trans (row_piece 9 _ _ rfl rfl _ _ _ x0 hM x1 x2 x)
  · exact fun x => (congrFun (Row.pay12_eq _ _ _) x).trans (row_piece 8 _ _ rfl rfl _ _ _ x0 hM x1 x2 x)
  · exact fun x => (congrFun (Row.pay11_eq _ _ _) x).trans (row_piece 7 _ _ rfl rfl _ _ _ x0 hM x1 x2 x)
  · exact fun x => (congrFun (Row.pay10_eq _ _ _) x).trans (row_piece 6 _ _ rfl rfl _ _ _ x0 hM x1 x2 x)
  · exact fun x => (congrFun (Row.pay8_eq _ _ _) x).trans (row_piece 5 _ _ rfl rfl _ _ _ x0 hM x1 x2 x)
  · exact fun x => (congrFun (Row.pay7_eq _ _ _) x).trans (row_piece 4 _ _ rfl rfl _ _ _ x0 hM x1 x2 x)
  · exact fun x => (congrFun (Row.pay5_eq _ _ _) x).trans (row_piece 3 _ _ rfl rfl _ _ _ x0 hM x1 x2 x)
  · exact fun x => (congrFun (Row.pay4_eq _ _ _) x).trans (row_piece 2 _ _ rfl rfl _ _ _ x0 hM x1 x2 x)
  · exact fun x => (congrFun (Row.pay3_eq _ _ _) x).trans (row_piece 1 _ _ rfl rfl _ _ _ x0 hM x1 x2 x)
  · exact fun x => (congrFun (Row.pay2_eq _ _ _) x).trans (row_piece 0 _ _ rfl rfl _ _ _ x0 hM x1 x2 x)

end Cert.KernelIdeal.Block

end
-- ==== Proof.KArray.lean ====
/-
  From the body's blocks to the region's output array.

  The region's output is a [16,4,131072] array, written in 32 blocks of 4096 columns: point p of the grid reads the whole
  matrix window, the whole bias window and columns 4096·p … 4096·p + 4095 of the input with its batch axis last, and writes
  back the same columns of the output. With the three arrays the region finds read entry by entry, the block the body leaves
  at point p is the restriction to those columns of ONE function of the arguments,

      arr(t, o, b) = layer(b, t, o) = max( ∑ k < 4, mixT(o, k) · x(b, t, k) + bias(t, o), 0 ),

  and the 32 blocks tile the array (column b lies in the block of point b / 4096), so the array ends holding `arr`.
-/
import proofs.«136572_g2000209335200470_pallasbulk_1332_3_alg».proof.Proof.Gen.KernelIdeal.Frame
import proofs.«136572_g2000209335200470_pallasbulk_1332_3_alg».proof.Proof.Spec
import proofs.«136572_g2000209335200470_pallasbulk_1332_3_alg».proof.Proof.KHost
import proofs.«136572_g2000209335200470_pallasbulk_1332_3_alg».proof.Proof.KBlock

set_option maxRecDepth 16384

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen Cert.WeightLayer

namespace Cert.KernelIdeal.Arr

/-- The region's output array as one function of the arguments: entry (t, o, b) is the layer's entry (b, t, o). -/
def arr (x : SX.Idx → EReal) (a w : SM.Idx → EReal) (bias : SB.Idx → EReal) : S16x4x131072.Idx → EReal :=
  fun i => entry x a w bias (i 2) (i 0) (i 1)

theorem arr_apply (x : SX.Idx → EReal) (a w : SM.Idx → EReal) (bias : SB.Idx → EReal) (t : Fin 16) (o : Fin 4)
    (b : Fin 131072) : arr x a w bias (ix3 t o b) = entry x a w bias b t o := rfl

/-- Column l of the block of point p is column 4096·p + l of the array. -/
abbrev col (p : ℕ) (hp : p < 32) (l : Fin 4096) : Fin 131072 := ⟨p * 4096 + l.val, by omega⟩

/-- The block of `Block.block` over blocks that are the matrix array, the bias array and columns 4096·p … of the moved
    input is the same columns of `arr`: stated over plain functions, the three arrays read entry by entry. -/
theorem block_is_arr
    (X0 : S4x4.Idx → EReal) (X1 : S16x4x128.Idx → EReal) (X2 : S16x4x131072.Idx → EReal)
    (x : SX.Idx → EReal) (a w : SM.Idx → EReal) (bias : SB.Idx → EReal)
    (hX0 : ∀ o k : Fin 4, X0 (ix2 o k) = mixT a w o k)
    (hX1 : ∀ (r : Fin 16) (o : Fin 4) (l : Fin 128), X1 (ix3 r o l) = bias (ix2 r o))
    (hX2 : ∀ (r : Fin 16) (k : Fin 4) (b : Fin 131072), X2 (ix3 r k b) = x (ix3 b r k))
    (p : ℕ) (hp : p < 32)
    (x0 : S4x4.Idx → EReal) (x1 : S16x4x128.Idx → EReal) (x2 : S16x4x4096.Idx → EReal)
    (h0 : ∀ o k : Fin 4, x0 (ix2 o k) = X0 (ix2 o k))
    (h1 : ∀ (r : Fin 16) (o : Fin 4), x1 (ix3 r o (0 : Fin 128)) = X1 (ix3 r o (0 : Fin 128)))
    (h2 : ∀ (r : Fin 16) (k : Fin 4) (l : Fin 4096), x2 (ix3 r k l) = X2 (ix3 r k (col p hp l)))
    (r : Fin 16) (o : Fin 4) (l : Fin 4096) :
    Block.block x0 x1 x2 (ix3 r o l) = arr x a w bias (ix3 r o (col p hp l)) := by
  rw [Block.block_apply, h1, hX1, arr_apply]
  simp only [h0, hX0, h2, hX2]
  rfl

variable (m : (ℓ : Loc nD τ sig) → Buf (Elt Ideal) ℓ) (c : Dev nD)

/-- The printed index maps, decided over the 32 points: the matrix and bias windows sit at block 0 on every axis, the
    input and output windows at block p along the columns and block 0 on the other two axes. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

/-- WHAT POINT t WRITES BACK is block t of `arr` of the arguments. -/
theorem flushed_eq (t : Fin cfg0.N) :
    (dats m 0 c).flushed 3 t = ((cfg0.win 3).blk t).view.read (Elt Ideal) (arr (m ((c : Thread nD τ).loc main_arg0)) (m ((c : Thread nD τ).loc main_arg1))
      (m ((c : Thread nD τ).loc main_arg2)) (m ((c : Thread nD τ).loc main_arg3))) := by
  show (cfg0.win 3).cut (grid0.coords t) ((dats m 0 c).after 3 t) = _
  rw [after0_3, Block.out_eq]
  obtain ⟨e00, e01, e10, e11, e12, e20, e21, e22, e30, e31, e32⟩ := idx_facts t
  have ht : t.val < 32 := lt_of_lt_of_eq t.isLt N_0
  -- the three input blocks, read where their windows' rectangles say
  have h0 : ∀ o k : Fin 4, (iblk m c 0 t : S4x4.Idx → EReal) (ix2 o k) = (V m c main_v1 : S4x4.Idx → EReal) (ix2 o k) := fun o k => by
    show (V m c main_v1 : S4x4.Idx → EReal) (((cfg0.win 0).blk t).view.emb (ix2 o k)) = _
    exact congrArg (V m c main_v1 : S4x4.Idx → EReal) (funext fun a => Fin.ext (by
      match a with
      | ⟨0, _⟩ => show win0_0.index t (0 : Fin 2) * 4 + 1 * o.val = o.val; omega
      | ⟨1, _⟩ => show win0_0.index t (1 : Fin 2) * 4 + 1 * k.val = k.val; omega))
  have h1 : ∀ (r : Fin 16) (o : Fin 4), (iblk m c 1 t : S16x4x128.Idx → EReal) (ix3 r o (0 : Fin 128))
      = (V m c main_v3 : S16x4x128.Idx → EReal) (ix3 r o (0 : Fin 128)) := fun r o => by
    show (V m c main_v3 : S16x4x128.Idx → EReal) (((cfg0.win 1).blk t).view.emb (ix3 r o (0 : Fin 128))) = _
    exact congrArg (V m c main_v3 : S16x4x128.Idx → EReal) (funext fun a => Fin.ext (by
      match a with
      | ⟨0, _⟩ => show win0_1.index t (0 : Fin 3) * 16 + 1 * r.val = r.val; omega
      | ⟨1, _⟩ => show win0_1.index t (1 : Fin 3) * 4 + 1 * o.val = o.val; omega
      | ⟨2, _⟩ => show win0_1.index t (2 : Fin 3) * 128 + 1 * 0 = 0; omega))
  have h2 : ∀ (r : Fin 16) (k : Fin 4) (l : Fin 4096), (iblk m c 2 t : S16x4x4096.Idx → EReal) (ix3 r k l)
      = (V m c main_v4 : S16x4x131072.Idx → EReal) (ix3 r k (col t.val ht l)) := fun r k l => by
    show (V m c main_v4 : S16x4x131072.Idx → EReal) (((cfg0.win 2).blk t).view.emb (ix3 r k l)) = _
    exact congrArg (V m c main_v4 : S16x4x131072.Idx → EReal) (funext fun a => Fin.ext (by
      match a with
      | ⟨0, _⟩ => show win0_2.index t (0 : Fin 3) * 16 + 1 * r.val = r.val; omega
      | ⟨1, _⟩ => show win0_2.index t (1 : Fin 3) * 4 + 1 * k.val = k.val; omega
      | ⟨2, _⟩ => show win0_2.index t (2 : Fin 3) * 4096 + 1 * l.val = t.val * 4096 + l.val; omega))
  funext j
  obtain ⟨r, o, l, rfl⟩ : ∃ (r : Fin 16) (o : Fin 4) (l : Fin 4096), j = ix3 r o l := ⟨j 0, j 1, j 2, eq_ix3 j⟩
  have hemb : ((cfg0.win 3).blk t).view.emb (ix3 r o l) = ix3 r o (col t.val ht l) := funext fun a => Fin.ext (by
    match a with
    | ⟨0, _⟩ => show win0_3.index t (0 : Fin 3) * 16 + 1 * r.val = r.val; omega
    | ⟨1, _⟩ => show win0_3.index t (1 : Fin 3) * 4 + 1 * o.val = o.val; omega
    | ⟨2, _⟩ => show win0_3.index t (2 : Fin 3) * 4096 + 1 * l.val = t.val * 4096 + l.val; omega)
  show Block.block (iblk m c 0 t) (iblk m c 1 t) (iblk m c 2 t) (ix3 r o l)
      = arr _ _ _ _ (((cfg0.win 3).blk t).view.emb (ix3 r o l))
  rw [hemb]
  exact block_is_arr (V m c main_v1) (V m c main_v3) (V m c main_v4) _ _ _ _
    (Host.mix_apply m c) (Host.lanes_apply m c) (Host.moved_apply m c) t.val ht _ _ _ h0 h1 h2 r o l

/-- An index of the array is in point t's block iff each coordinate is in the block's range on its axis. -/
theorem mem_blk (t : Fin cfg0.N) (i : S16x4x131072.Idx) :
    i ∈ ((cfg0.win 3).blk t).view.set ↔ ∀ a : Fin 3, win0_3.index t a * S16x4x4096.size a ≤ (i a).val
      ∧ (i a).val < win0_3.index t a * S16x4x4096.size a + S16x4x4096.size a := by
  show i ∈ ((View.whole main_v5).slice (win0_3.rect t)).set ↔ _
  rw [View.set_slice_whole, Rect.mem_set_unit]
  exact Iff.rfl

/-- The 32 blocks tile the array: column b is in the block of point b / 4096. -/
theorem cover (i : S16x4x131072.Idx) :
    ∃ t : Fin cfg0.N, (cfg0.win 3).flush t = true ∧ i ∈ ((cfg0.win 3).blk t).view.set := by
  have b0 : (i 0).val < 16 := (i 0).isLt
  have b1 : (i 1).val < 4 := (i 1).isLt
  have b2 : (i 2).val < 131072 := (i 2).isLt
  obtain ⟨t, ht⟩ : ∃ t : Fin cfg0.N, t.val = (i 2).val / 4096 :=
    ⟨⟨(i 2).val / 4096, by rw [show cfg0.N = 32 from N_0]; omega⟩, rfl⟩
  obtain ⟨-, -, -, -, -, -, -, -, e30, e31, e32⟩ := idx_facts t
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 4 ≤ (i 1).val ∧ (i 1).val < win0_3.index t (1 : Fin 3) * 4 + 4; omega
  | ⟨2, _⟩ => show win0_3.index t (2 : Fin 3) * 4096 ≤ (i 2).val ∧ (i 2).val < win0_3.index t (2 : Fin 3) * 4096 + 4096; omega

/-- THE ARRAY after the region: `arr` of the arguments. -/
theorem final : (dats m 0 c).arrAt 3 cfg0.N = arr (m ((c : Thread nD τ).loc main_arg0)) (m ((c : Thread nD τ).loc main_arg1))
      (m ((c : Thread nD τ).loc main_arg2)) (m ((c : Thread nD τ).loc main_arg3)) :=
  (dats m 0 c).arrAt_eq_of_cover 3 _ (fun t _ => flushed_eq m c t) cover

end Cert.KernelIdeal.Arr

end
-- ==== Proof.KRun.lean ====
/-
  The kernel program's run, read: its result array is the weight layer of its arguments.

  After the region the host transposes the region's [16,4,131072] output array back to the input's layout
  [131072,16,4]: entry (b, t, o) of the result is entry (t, o, b) of the region's output, which is the layer's entry
  (b, t, o). The argument arrays are written by no operation and end as launched.
-/
import proofs.«136572_g2000209335200470_pallasbulk_1332_3_alg».proof.Proof.Gen.KernelIdeal.Frame
import proofs.«136572_g2000209335200470_pallasbulk_1332_3_alg».proof.Proof.Spec
import proofs.«136572_g2000209335200470_pallasbulk_1332_3_alg».proof.Proof.KArray
import Idealize.ShloMosaic.Lib.StableHlo.Run

set_option maxRecDepth 16384

noncomputable section

open Idealize.ShloMosaic Idealize.ShloMosaic.TcCoe Idealize.SL.Sem Idealize.ShloMosaic.ValueIdx
open Cert.KernelIdeal Cert.KernelIdeal.Gen Cert.WeightLayer

namespace Cert.KernelIdeal.Val

variable (m : (ℓ : Loc nD τ sig) → Buf (Elt Ideal) ℓ) (ρ : Dev nD → PrngReg)

/-- The host operation after the region: the result is the transpose of the region's output array. -/
theorem tail_eq (c : Dev nD) :
    (Pipeline.afterTail₀ cfgs (dats m) 0 (V0 m) [hostOps1] c main_v6 : S131072x16x4.Idx → EReal)
      = transpose S131072x16x4 [2, 0, 1] ((dats m 0 c).arrAt 3 cfg0.N) Facts₀.transposes_S16x4x131072_S131072x16x4_2_0_1 := by
  unfold Pipeline.afterTail₀
  show StableHlo.after hostOps1 _ (Proc.devRef .tc main_v6) = _
  after_results
  rw [Pipeline.withArrays_arr spec0 launch0.win.arr_inj c _ _ 3]

/-- The transposed output array is the layer, entry by entry. -/
theorem result_eq (c : Dev nD) :
    (Pipeline.afterTail₀ cfgs (dats m) 0 (V0 m) [hostOps1] c main_v6 : S131072x16x4.Idx → EReal)
      = layer (m ((c : Thread nD τ).loc main_arg0)) (m ((c : Thread nD τ).loc main_arg1))
      (m ((c : Thread nD τ).loc main_arg2)) (m ((c : Thread nD τ).loc main_arg3)) := by
  rw [tail_eq, Arr.final]
  funext i
  obtain ⟨b, t, o, rfl⟩ : ∃ (b : Fin 131072) (t : Fin 16) (o : Fin 4), i = ix3 b t o := ⟨i 0, i 1, i 2, eq_ix3 i⟩
  refine (transpose_apply _ _ _ (ix3 b t o) (ix3 t o b)
    (fun a => match a with | ⟨0, _⟩ => rfl | ⟨1, _⟩ => rfl | ⟨2, _⟩ => rfl)).trans ?_
  rw [Arr.arr_apply, layer_apply]

theorem run :
    θ_run (defs (F := Ideal)) (onTc (τ := τ) (main (F := Ideal))) ⟨m, fun _ => 0, ρ⟩ (fun r => ∀ c : Dev nD,
      r.2.mem ((c.tc : Thread nD τ).loc main_v6) = Cert.WeightLayer.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.LibScatterSet.lean ====
/-
  A replacing scatter (`.at[…].set(v)`) as it is printed, read at an entry.

  The printed scatter is a left fold over the update entries in row-major order: an update entry whose result index is
  inside the operand replaces the operand's element there, an entry landing outside is dropped. When exactly one update
  entry lands on an entry `i` of the operand, the result at `i` is that update, whatever the order of the fold; when
  none does, the operand's own element stays.

  The rank-two window case — `x.at[r0 : r0 + A, c0 : c0 + B].set(u)` with one start index (r0, c0) read off a length-2
  vector of words — has update (p, q) landing at (r0 + p, c0 + q); when the window fits, every entry inside it takes
  its update and every entry outside keeps the operand's element.
-/
import Idealize.ShloMosaic.PureOps
import Idealize.ShloMosaic.Lib.ValueIdx
import Mathlib.Data.BitVec

noncomputable section

open Idealize.ShloMosaic Idealize.ShloMosaic.ValueIdx

namespace Cert.LibScatterSet

section Fold

variable {α : Type} {s si u : Shape} {w : Nat}

/-- THE ENTRY ONE UPDATE LANDS ON: if update entry `j` lands on `i` and no other does, the result at `i` is update `j`. -/
theorem scatter_set_of_unique (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  have h : ∀ (l : List (Fin u.numel)) (r : s.Idx → α),
      (l.foldl (fun r n =>
        match d.resultIdx? (u.rowMajor.symm n) idx with
        | some i0 => fun i' => if i' = i0 then upd (u.rowMajor.symm n) else r i'
        | none => r) r) i
      = if u.rowMajor j ∈ l then upd j else r i := by
    intro l
    induction l with
    | nil => intro r; simp
    | cons n l ih =>
      intro r
      rw [List.foldl_cons, ih]
      by_cases hn : n = u.rowMajor j
      · subst hn
        rw [Equiv.symm_apply_apply, hj]
        simp
      · have hne : d.resultIdx? (u.rowMajor.symm n) idx ≠ some i := fun hh =>
          hn (by rw [← huniq _ hh, Equiv.apply_symm_apply])
        have hmem : (u.rowMajor j ∈ n :: l) ↔ u.rowMajor j ∈ l := by
          rw [List.mem_cons]; exact ⟨fun h => h.resolve_left (fun e => hn e.symm), Or.inr⟩
        rw [if_congr hmem rfl rfl]
        refine if_congr Iff.rfl rfl ?_
        cases hres : d.resultIdx? (u.rowMajor.symm n) idx with
        | none => rfl
        | some i0 =>
          show (if i = i0 then upd (u.rowMajor.symm n) else r i) = r i
          rw [if_neg (fun e => hne (by rw [hres, e]))]
  refine (h (List.finRange u.numel) x).trans ?_
  rw [if_pos (List.mem_finRange _)]

/-- AN ENTRY NO UPDATE LANDS ON keeps the operand's element. -/
theorem scatter_set_of_none (d : ScatterDims s si u) (x : s.Idx → α) (idx : IVec si w) (upd : u.Idx → α) (i : s.Idx)
    (hno : ∀ j, d.resultIdx? j idx ≠ some i) :
    Host.scatter d (fun _ b => b) x idx upd i = x i := by
  unfold Host.scatter
  have h : ∀ (l : List (Fin u.numel)) (r : s.Idx → α),
      (l.foldl (fun r n =>
        match d.resultIdx? (u.rowMajor.symm n) idx with
        | some i0 => fun i' => if i' = i0 then upd (u.rowMajor.symm n) else r i'
        | none => r) r) i = r i := by
    intro l
    induction l with
    | nil => intro r; rfl
    | cons n l ih =>
      intro r
      rw [List.foldl_cons, ih]
      cases hres : d.resultIdx? (u.rowMajor.symm n) idx with
      | none => rfl
      | some i0 =>
        show (if i = i0 then upd (u.rowMajor.symm n) else r i) = r i
        rw [if_neg (fun e => hno _ (by rw [hres, e]))]
  exact h (List.finRange u.numel) x

end Fold

section Window

variable {α : Type} {N M A B w : Nat}

/-- The dimension numbers of `x.at[r0 : r0 + A, c0 : c0 + B].set(u)`: operand [N, M], ONE start index given as a vector of
    two words, updates [A, B], both update axes window axes. -/
abbrev winDims (N M A B : Nat) (wf : ScatterDims.WF ⟨2, ![N, M]⟩ ⟨1, ![2]⟩ ⟨2, ![A, B]⟩ [0, 1] [] [0, 1] 0) :
    ScatterDims ⟨2, ![N, M]⟩ ⟨1, ![2]⟩ ⟨2, ![A, B]⟩ where
  updateWindowDims := [0, 1]
  insertedWindowDims := []
  scatterDimsToOperandDims := [0, 1]
  indexVectorDim := 0
  wf := wf

variable (wf : ScatterDims.WF ⟨2, ![N, M]⟩ ⟨1, ![2]⟩ ⟨2, ![A, B]⟩ [0, 1] [] [0, 1] 0)
  (idx : IVec ⟨1, ![2]⟩ w) (j : (⟨2, ![A, B]⟩ : Shape).Idx)

/-- The window starts, on each operand axis, at that axis's word of the start index, read signed. -/
theorem win_start0 : (winDims N M A B wf).start j idx 0 = (idx (ix1 0)).toInt := by
  unfold ScatterDims.start
  rw [dif_pos (show (0 : Fin 2) ∈ (winDims N M A B wf).scatterDimsToOperandDims from (by decide : (0 : Fin 2) ∈ ([0, 1] : List (Fin 2))))]
  refine congrArg (fun y => (idx y).toInt) (funext fun b => Fin.ext ?_)
  match b with
  | ⟨0, _⟩ => rfl

theorem win_start1 : (winDims N M A B wf).start j idx 1 = (idx (ix1 1)).toInt := by
  unfold ScatterDims.start
  rw [dif_pos (show (1 : Fin 2) ∈ (winDims N M A B wf).scatterDimsToOperandDims from (by decide : (1 : Fin 2) ∈ ([0, 1] : List (Fin 2))))]
  refine congrArg (fun y => (idx y).toInt) (funext fun b => Fin.ext ?_)
  match b with
  | ⟨0, _⟩ => rfl

/-- The window coordinate on each operand axis is the update entry's coordinate on the same axis. -/
theorem win_window0 : (winDims N M A B wf).window j 0 = (j 0).val := by
  unfold ScatterDims.window
  rw [dif_pos (show (0 : Fin 2) ∈ (winDims N M A B wf).sKept from (by decide : (0 : Fin 2) ∈ (List.finRange 2).filter (· ∉ ([] : List (Fin 2)))))]
  rfl

theorem win_window1 : (winDims N M A B wf).window j 1 = (j 1).val := by
  unfold ScatterDims.window
  rw [dif_pos (show (1 : Fin 2) ∈ (winDims N M A B wf).sKept from (by decide : (1 : Fin 2) ∈ (List.finRange 2).filter (· ∉ ([] : List (Fin 2)))))]
  rfl

variable (r0 c0 : Nat) (h0 : (idx (ix1 0)).toInt = (r0 : Int)) (h1 : (idx (ix1 1)).toInt = (c0 : Int))
  (hr : r0 + A ≤ N) (hc : c0 + B ≤ M)

include h0 h1 hr hc in
/-- WHERE UPDATE (p, q) LANDS when the window fits: at (r0 + p, c0 + q). -/
theorem resultIdx?_win :
    (winDims N M A B wf).resultIdx? j idx
      = some (ix2 ⟨r0 + (j 0).val, by have : (j 0).val < A := (j 0).isLt; omega⟩
                  ⟨c0 + (j 1).val, by have : (j 1).val < B := (j 1).isLt; omega⟩) := by
  have hj0 : (j 0).val < A := (j 0).isLt
  have hj1 : (j 1).val < B := (j 1).isLt
  unfold ScatterDims.resultIdx?
  have hall : ∀ a : Fin 2, 0 ≤ (winDims N M A B wf).start j idx a + (winDims N M A B wf).window j a
      ∧ (winDims N M A B wf).start j idx a + (winDims N M A B wf).window j a < ((⟨2, ![N, M]⟩ : Shape).size a : Int) := by
    intro a
    match a with
    | ⟨0, _⟩ =>
      show 0 ≤ (winDims N M A B wf).start j idx 0 + (winDims N M A B wf).window j 0
        ∧ (winDims N M A B wf).start j idx 0 + (winDims N M A B wf).window j 0 < (N : Int)
      rw [win_start0, win_window0, h0]; omega
    | ⟨1, _⟩ =>
      show 0 ≤ (winDims N M A B wf).start j idx 1 + (winDims N M A B wf).window j 1
        ∧ (winDims N M A B wf).start j idx 1 + (winDims N M A B wf).window j 1 < (M : Int)
      rw [win_start1, win_window1, h1]; omega
  rw [dif_pos hall]
  refine congrArg some (funext fun a => Fin.ext ?_)
  match a with
  | ⟨0, _⟩ =>
    show ((winDims N M A B wf).start j idx 0 + (winDims N M A B wf).window j 0).toNat = r0 + (j 0).val
    rw [win_start0, win_window0, h0]; omega
  | ⟨1, _⟩ =>
    show ((winDims N M A B wf).start j idx 1 + (winDims N M A B wf).window j 1).toNat = c0 + (j 1).val
    rw [win_start1, win_window1, h1]; omega

include h0 h1 hr hc in
/-- INSIDE THE WINDOW the result is the update: entry (r0 + p, c0 + q) holds update (p, q). -/
theorem win_set_inside (x : (⟨2, ![N, M]⟩ : Shape).Idx → α) (upd : (⟨2, ![A, B]⟩ : Shape).Idx → α) (p : Fin A) (q : Fin B) :
    Host.scatter (winDims N M A B wf) (fun _ b => b) x idx upd
        (ix2 ⟨r0 + p.val, by have := p.isLt; omega⟩ ⟨c0 + q.val, by have := q.isLt; omega⟩) = upd (ix2 p q) := by
  refine scatter_set_of_unique _ x idx upd _ (ix2 p q) (resultIdx?_win wf idx (ix2 p q) r0 c0 h0 h1 hr hc) fun j' hj' => ?_
  rw [resultIdx?_win wf idx j' r0 c0 h0 h1 hr hc] at hj'
  have e := Option.some.inj hj'
  have e0 : r0 + (j' 0).val = r0 + p.val := congrArg (fun y : (⟨2, ![N, M]⟩ : Shape).Idx => (y 0).val) e
  have e1 : c0 + (j' 1).val = c0 + q.val := congrArg (fun y : (⟨2, ![N, M]⟩ : Shape).Idx => (y 1).val) e
  rw [eq_ix2 j']
  refine funext fun a => Fin.ext ?_
  match a with
  | ⟨0, _⟩ => show (j' 0).val = p.val; omega
  | ⟨1, _⟩ => show (j' 1).val = q.val; omega

include h0 h1 hr hc in
/-- OUTSIDE THE WINDOW the operand's element stays. -/
theorem win_set_outside (x : (⟨2, ![N, M]⟩ : Shape).Idx → α) (upd : (⟨2, ![A, B]⟩ : Shape).Idx → α) (i : Fin N) (k : Fin M)
    (hout : ¬ (r0 ≤ i.val ∧ i.val < r0 + A ∧ c0 ≤ k.val ∧ k.val < c0 + B)) :
    Host.scatter (winDims N M A B wf) (fun _ b => b) x idx upd (ix2 i k) = x (ix2 i k) := by
  refine scatter_set_of_none _ x idx upd _ fun j' hj' => ?_
  rw [resultIdx?_win wf idx j' r0 c0 h0 h1 hr hc] at hj'
  have e := Option.some.inj hj'
  have e0 : r0 + (j' 0).val = i.val := congrArg (fun y : (⟨2, ![N, M]⟩ : Shape).Idx => (y 0).val) e
  have e1 : c0 + (j' 1).val = k.val := congrArg (fun y : (⟨2, ![N, M]⟩ : Shape).Idx => (y 1).val) e
  have hj0 : (j' 0).val < A := (j' 0).isLt
  have hj1 : (j' 1).val < B := (j' 1).isLt
  exact hout (by omega)

end Window

end Cert.LibScatterSet

end
-- ==== Proof.RMix.lean ====
import proofs.«136572_g2000209335200470_pallasbulk_1332_3_alg».proof.Proof.Gen.ReferenceIdeal.Frame
import proofs.«136572_g2000209335200470_pallasbulk_1332_3_alg».proof.Proof.Spec
import proofs.«136572_g2000209335200470_pallasbulk_1332_3_alg».proof.Proof.LibPlainDot
import Idealize.ShloMosaic.Lib.ValueIdx
import Idealize.ShloMosaic.Lib.Pipeline.Value
import Idealize.ShloMosaic.Lib.StableHlo.Run
import Idealize.ShloMosaic.PureOps.Ideal.Laws
import proofs.«136572_g2000209335200470_pallasbulk_1332_3_alg».proof.Proof.LibScatterSet
set_option maxRecDepth 16384

noncomputable section

open Idealize.ShloMosaic Idealize.ShloMosaic.TcCoe Idealize.SL.Sem Idealize.ShloMosaic.ValueIdx
open Cert.ReferenceIdeal Cert.ReferenceIdeal.Gen Cert.WeightLayer Cert.LibScatterSet

/-! The 8×8 left factor of the reference's product. The host builds it from the 4×4 matrix mixT (the transposed product of
    the two parameter matrices) by writing mixT into the window rows 0–3 × columns 0–3 of an 8×8 array of zeros and then
    into the window rows 4–7 × columns 4–7 of the result: entry (4p + o, 4q + k) is mixT(o, k) on the diagonal blocks
    (p = q) and 0 on the two off-diagonal blocks. -/

namespace Cert.ReferenceIdeal.Val

variable (m : (ℓ : Loc nD τ sig) → Buf (Elt Ideal) ℓ) (c : Dev nD)

/-- The transposed product of the parameter matrices, as the host computes it. -/
def mixArr : FVec Ideal S4x4 .f32 :=
  transpose S4x4 [1, 0] (Host.dotGeneral (F := Ideal) (φ₁ := .f32) (φ₂ := .f32) dot_S4x4_S4x4_S4x4_1_0_0_1_n_n (some .fp32)
    (m ((c : Thread nD τ).loc main_arg1) : FVec Ideal S4x4 .f32) (m ((c : Thread nD τ).loc main_arg2) : FVec Ideal S4x4 .f32))
    Facts₀.transposes_S4x4_S4x4_1_0

theorem mixArr_apply (o k : Fin 4) :
    mixArr m c (ix2 o k) = mixT (m ((c : Thread nD τ).loc main_arg1)) (m ((c : Thread nD τ).loc main_arg2)) o k := by
  unfold mixArr
  refine (transpose_apply _ _ _ (ix2 o k) (ix2 k o) (fun a => match a with | ⟨0, _⟩ => rfl | ⟨1, _⟩ => rfl)).trans ?_
  exact Cert.LibPlainDot.dotGeneral_apply (n := 4) (a := 4) (b := 4) (some .fp32) _ _ k o

/-- A window's start index as the host builds it: the same word twice. -/
def startVec (wd : BitVec 32) : IVec S2 32 :=
  concatenate S2 0 [⟨S1, broadcastInDim S1 ![] Facts₀.bcast_S_S1 (constantI S_ 32 wd)⟩,
    ⟨S1, broadcastInDim S1 ![] Facts₀.bcast_S_S1 (constantI S_ 32 wd)⟩] Facts₀.concatenates_S1_S1_S2_d0

theorem startVec_apply (wd : BitVec 32) (a : Fin 2) : startVec wd (ix1 a) = wd := by
  fin_cases a <;> rfl

/-- The array the region finds as its first operand: the two window writes over the zeros. -/
theorem v10_eq : (V m c main_v10 : S8x8.Idx → EReal)
    = Host.scatter scatter_S8x8_S2_S4x4_01_n_01_0 (fun _ b => b)
        (Host.scatter scatter_S8x8_S2_S4x4_01_n_01_0 (fun _ b => b)
          (broadcastInDim S8x8 ![] Facts₀.bcast_S_S8x8 (constant (F := Ideal) S_ .f32 0x00000000#32)) (startVec 0#32) (mixArr m c))
        (startVec 4#32) (mixArr m c) := by
  show StableHlo.after hostOps0 (fun b => m (c, b)) (Proc.devRef .tc main_v10) = _
  after_results
  rfl

/-- The printed dimension numbers are those of a rank-two window write. -/
theorem dims_eq : scatter_S8x8_S2_S4x4_01_n_01_0 = winDims 8 8 4 4 Facts₀.scatter_S8x8_S2_S4x4_01_n_01_0_wf := rfl

theorem mix_apply (p q : Fin 2) (o k : Fin 4) :
    (V m c main_v10 : S8x8.Idx → EReal) (ix2 (at8 p o) (at8 q k))
      = if p = q then mixT (m ((c : Thread nD τ).loc main_arg1)) (m ((c : Thread nD τ).loc main_arg2)) o k else 0 := by
  rw [v10_eq, dims_eq]
  have ho := o.isLt
  have hk := k.isLt
  have s0 : ((startVec 0#32) (ix1 0)).toInt = ((0 : Nat) : Int) := by rw [startVec_apply]; rfl
  have s0' : ((startVec 0#32) (ix1 1)).toInt = ((0 : Nat) : Int) := by rw [startVec_apply]; rfl
  have s4 : ((startVec 4#32) (ix1 0)).toInt = ((4 : Nat) : Int) := by rw [startVec_apply]; rfl
  have s4' : ((startVec 4#32) (ix1 1)).toInt = ((4 : Nat) : Int) := by rw [startVec_apply]; rfl
  by_cases h11 : p = 1 ∧ q = 1
  · obtain ⟨rfl, rfl⟩ := h11
    rw [if_pos rfl]
    exact (win_set_inside _ (startVec 4#32) 4 4 s4 s4' (by omega) (by omega) _ (mixArr m c) o k).trans (mixArr_apply m c o k)
  · have hp := p.isLt
    have hq := q.isLt
    rw [win_set_outside _ (startVec 4#32) 4 4 s4 s4' (by omega) (by omega) _ (mixArr m c) (at8 p o) (at8 q k) (by
      intro hh
      refine h11 ⟨Fin.ext ?_, Fin.ext ?_⟩
      · show p.val = 1; have := hh.1; simp only [at8] at this; omega
      · show q.val = 1; have := hh.2.2.1; simp only [at8] at this; omega)]
    by_cases h00 : p = 0 ∧ q = 0
    · obtain ⟨rfl, rfl⟩ := h00
      rw [if_pos rfl]
      exact (win_set_inside _ (startVec 0#32) 0 0 s0 s0' (by omega) (by omega) _ (mixArr m c) o k).trans (mixArr_apply m c o k)
    · rw [win_set_outside _ (startVec 0#32) 0 0 s0 s0' (by omega) (by omega) _ (mixArr m c) (at8 p o) (at8 q k) (by
        intro hh
        refine h00 ⟨Fin.ext ?_, Fin.ext ?_⟩
        · show p.val = 0; have := hh.2.1; simp only [at8] at this; omega
        · show q.val = 0; have := hh.2.2.2; simp only [at8] at this; omega)]
      have hpq : p ≠ q := by
        intro e; subst e
        have : p.val = 0 ∨ p.val = 1 := by omega
        rcases this with h | h
        · exact h00 ⟨Fin.ext h, Fin.ext h⟩
        · exact h11 ⟨Fin.ext h, Fin.ext h⟩
      rw [if_neg hpq]
      show Ideal.ofBits .f32 0x00000000#32 = 0
      exact Ideal.ofBits_zero_f32

end Cert.ReferenceIdeal.Val
end
-- ==== Proof.RHost.lean ====
/-
  The two arrays the host prepares for the region out of the input and the bias, read entry by entry.

  The input x of shape [131072, 16, 4] is flattened to rows (b, t) ↦ 16·b + t of four entries, two consecutive rows are
  laid side by side as one row of eight, and the result is transposed: row 4·q + k, column col holds x at flat row
  2·col + q, entry k. The bias of shape [16, 4] is repeated 4096 times along a new leading axis and treated the same way:
  row 4·q + c', column l holds the bias of flat row 2·l + q, which is bias row (2·l + q) mod 16, entry c'.
-/
import proofs.«136572_g2000209335200470_pallasbulk_1332_3_alg».proof.Proof.Gen.ReferenceIdeal.Frame
import proofs.«136572_g2000209335200470_pallasbulk_1332_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.ReferenceIdeal Cert.ReferenceIdeal.Gen Cert.WeightLayer

namespace Cert.ReferenceIdeal.Val

variable (m : (ℓ : Loc nD τ sig) → Buf (Elt Ideal) ℓ) (c : Dev nD)

/-- The transposed input as the host's three layout operations of the input argument. -/
theorem xT_eq : (V m c main_v13 : S8x1048576.Idx → EReal)
    = transpose S8x1048576 [1, 0]
        (shapeCast S1048576x8
          (shapeCast S2097152x4 (m ((c : Thread nD τ).loc main_arg0)) Facts₀.shapeCasts_S131072x16x4_S2097152x4)
          Facts₀.shapeCasts_S2097152x4_S1048576x8)
        Facts₀.transposes_S1048576x8_S8x1048576_1_0 := by
  show StableHlo.after hostOps0 (fun b => m (c, b)) (Proc.devRef .tc main_v13) = _
  after_results
  rfl

/-- Row 4·q + k, column col of the transposed input is the input at flat row 2·col + q, entry k. -/
theorem xT_apply (q : Fin 2) (k : Fin 4) (col : Fin 1048576) :
    (V m c main_v13 : S8x1048576.Idx → EReal) (ix2 (at8 q k) col)
      = (m ((c : Thread nD τ).loc main_arg0) : S131072x16x4.Idx → EReal)
          (ix3 (⟨(2 * col.val + q.val) / 16, by omega⟩ : Fin 131072) (⟨(2 * col.val + q.val) % 16, by omega⟩ : Fin 16) k) := by
  rw [xT_eq]
  refine (transpose_apply _ _ _ (ix2 (at8 q k) col) (ix2 col (at8 q k))
    (fun a => match a with | ⟨0, _⟩ => rfl | ⟨1, _⟩ => rfl)).trans ?_
  refine (shapeCast_apply _ _ (ix2 col (at8 q k)) (ix2 (⟨2 * col.val + q.val, by omega⟩ : Fin 2097152) k) ?_).trans ?_
  · rw [Shape.rowMajor_val_two, Shape.rowMajor_val_two]
    show (2 * col.val + q.val) * 4 + k.val = col.val * 8 + (4 * q.val + k.val)
    omega
  refine shapeCast_apply _ _ (ix2 (⟨2 * col.val + q.val, by omega⟩ : Fin 2097152) k)
    (ix3 (⟨(2 * col.val + q.val) / 16, by omega⟩ : Fin 131072) (⟨(2 * col.val + q.val) % 16, by omega⟩ : Fin 16) k) ?_
  rw [Shape.rowMajor_val_three, Shape.rowMajor_val_two]
  show ((2 * col.val + q.val) / 16 * 16 + (2 * col.val + q.val) % 16) * 4 + k.val = (2 * col.val + q.val) * 4 + k.val
  omega

/-- The transposed bias block as the host's five layout operations of the bias argument. -/
theorem biasT_eq : (V m c main_v18 : S8x32768.Idx → EReal)
    = transpose S8x32768 [1, 0]
        (shapeCast S32768x8
          (shapeCast S65536x4
            (broadcastInDim S4096x16x1x4 ![0, 1, 2, 3] Facts₀.bcast_S1x16x1x4_S4096x16x1x4_0_1_2_3
              (shapeCast S1x16x1x4 (m ((c : Thread nD τ).loc main_arg3)) Facts₀.shapeCasts_S16x4_S1x16x1x4))
            Facts₀.shapeCasts_S4096x16x1x4_S65536x4)
          Facts₀.shapeCasts_S65536x4_S32768x8)
        Facts₀.transposes_S32768x8_S8x32768_1_0 := by
  show StableHlo.after hostOps0 (fun b => m (c, b)) (Proc.devRef .tc main_v18) = _
  after_results
  rfl

/-- Row 4·q + c', column l of the transposed bias block is the bias at row (2·l + q) mod 16, entry c'. -/
theorem biasT_apply (q : Fin 2) (c' : Fin 4) (l : Fin 32768) :
    (V m c main_v18 : S8x32768.Idx → EReal) (ix2 (at8 q c') l)
      = (m ((c : Thread nD τ).loc main_arg3) : S16x4.Idx → EReal) (ix2 (⟨(2 * l.val + q.val) % 16, by omega⟩ : Fin 16) c') := by
  rw [biasT_eq]
  refine (transpose_apply _ _ _ (ix2 (at8 q c') l) (ix2 l (at8 q c'))
    (fun a => match a with | ⟨0, _⟩ => rfl | ⟨1, _⟩ => rfl)).trans ?_
  refine (shapeCast_apply _ _ (ix2 l (at8 q c')) (ix2 (⟨2 * l.val + q.val, by omega⟩ : Fin 65536) c') ?_).trans ?_
  · rw [Shape.rowMajor_val_two, Shape.rowMajor_val_two]
    show (2 * l.val + q.val) * 4 + c'.val = l.val * 8 + (4 * q.val + c'.val)
    omega
  refine (shapeCast_apply _ _ (ix2 (⟨2 * l.val + q.val, by omega⟩ : Fin 65536) c')
    (ix4 (⟨(2 * l.val + q.val) / 16, by omega⟩ : Fin 4096) (⟨(2 * l.val + q.val) % 16, by omega⟩ : Fin 16) (0 : Fin 1) c') ?_).trans ?_
  · rw [Shape.rowMajor_val_four, Shape.rowMajor_val_two]
    show (((2 * l.val + q.val) / 16 * 16 + (2 * l.val + q.val) % 16) * 1 + 0) * 4 + c'.val = (2 * l.val + q.val) * 4 + c'.val
    omega
  refine (broadcastInDim_apply _ _ _
    (ix4 (⟨(2 * l.val + q.val) / 16, by omega⟩ : Fin 4096) (⟨(2 * l.val + q.val) % 16, by omega⟩ : Fin 16) (0 : Fin 1) c')
    (ix4 (0 : Fin 1) (⟨(2 * l.val + q.val) % 16, by omega⟩ : Fin 16) (0 : Fin 1) c')
    (fun a => match a with | ⟨0, _⟩ => rfl | ⟨1, _⟩ => rfl | ⟨2, _⟩ => rfl | ⟨3, _⟩ => rfl)).trans ?_
  refine shapeCast_apply _ _ (ix4 (0 : Fin 1) (⟨(2 * l.val + q.val) % 16, by omega⟩ : Fin 16) (0 : Fin 1) c')
    (ix2 (⟨(2 * l.val + q.val) % 16, by omega⟩ : Fin 16) c') ?_
  rw [Shape.rowMajor_val_two, Shape.rowMajor_val_four]
  show (2 * l.val + q.val) % 16 * 4 + c'.val = ((0 * 16 + (2 * l.val + q.val) % 16) * 1 + 0) * 4 + c'.val
  omega

end Cert.ReferenceIdeal.Val
end
-- ==== Proof.RBody.lean ====
/-
  What one step of the region leaves in its output block, entry by entry.

  The body loads the 8×8 left factor, the step's 8×32768 block of the transposed input and the 8×32768 bias block, forms
  the matrix product into a zero accumulator, adds the bias block, takes the maximum with zero, and stores the whole
  block once. So entry (r, l) of the stored block is max( ∑ j < 8, A(r, j) · X(j, l) + B(r, l), 0 ).
-/
import proofs.«136572_g2000209335200470_pallasbulk_1332_3_alg».proof.Proof.Gen.ReferenceIdeal.Frame
import proofs.«136572_g2000209335200470_pallasbulk_1332_3_alg».proof.Proof.LibPlainDot
import proofs.«136572_g2000209335200470_pallasbulk_1332_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.ReferenceIdeal Cert.ReferenceIdeal.Gen Cert.WeightLayer

namespace Cert.ReferenceIdeal.Val

theorem zero_offsets : (![0, 0] : Fin 2 → Nat) = fun _ => 0 := funext fun a => by fin_cases a <;> rfl

/-- The stored value at entry (r, l), from the three loaded blocks. -/
theorem stored_apply (v0 : Vec Ideal S8x8 .f32) (v2 v5 : Vec Ideal S8x32768 .f32) (r : Fin 8) (l : Fin 32768) :
    k0_pay1 v0 v2 v5 (ix2 r l) = max ((∑ j : Fin 8, v0 (ix2 r j) * v2 (ix2 j l)) + v5 (ix2 r l)) 0 := by
  unfold k0_pay1
  refine (maximumf_apply _ _ (ix2 r l)).trans ?_
  refine congrArg₂ max ?_ ?_
  · refine (addf_apply _ _ (ix2 r l)).trans ?_
    refine congrArg₂ (· + ·) ?_ ?_
    · refine (Cert.LibPlainDot.matmul_zero_apply (n := 8) (a := 8) (b := 32768) (some .fp32) _ _ r l).trans ?_
      rw [shapeCast_self, shapeCast_self]
    · exact congrFun (shapeCast_self v5 _) (ix2 r l)
  · exact (broadcast_apply _ (ix2 r l)).trans Ideal.ofBits_zero_f32

/-- The output block after the body, at entry (r, l), from the three input blocks. -/
theorem block_apply (x0 : Vec Ideal S8x8 .f32) (x1 x2 : Vec Ideal S8x32768 .f32) (r : Fin 8) (l : Fin 32768) :
    out0_3 x0 x1 x2 (ix2 r l) = max ((∑ j : Fin 8, x0 (ix2 r j) * x2 (ix2 j l)) + x1 (ix2 r l)) 0 := by
  unfold out0_3
  rw [View.canon_unit_zero zero_offsets]
  simp only [View.ld_unit_zero (S := S8x32768) zero_offsets, View.ld_unit_zero (S := S8x8) zero_offsets]
  exact stored_apply x0 x2 x1 r l

end Cert.ReferenceIdeal.Val
end
-- ==== Proof.RArray.lean ====
/-
  From the region's 32 steps to its whole result array.

  Step t of the region reads the 8×8 left factor A whole, the 8×32768 bias block B whole, and columns
  32768·t … 32768·t + 32767 of the 8×1048576 transposed input X, and writes the same columns of the result. With what
  one step stores (entry (r, l) of its block is max( ∑ j < 8, A(r, j) · X-block(j, l) + B(r, l), 0 )), column
  col = 32768·t + l of the result holds

      max( ∑ j < 8, A(r, j) · X(j, col) + B(r, col mod 32768), 0 ),

  one function of the three arrays; the 32 column blocks tile the result, so the result array is that function.
-/
import proofs.«136572_g2000209335200470_pallasbulk_1332_3_alg».proof.Proof.Gen.ReferenceIdeal.Frame
import proofs.«136572_g2000209335200470_pallasbulk_1332_3_alg».proof.Proof.Spec
import proofs.«136572_g2000209335200470_pallasbulk_1332_3_alg».proof.Proof.RBody
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.ReferenceIdeal Cert.ReferenceIdeal.Gen Cert.WeightLayer

open Idealize.ShloMosaic.Pipeline (Dat)

namespace Cert.ReferenceIdeal.Val

variable (m : (ℓ : Loc nD τ sig) → Buf (Elt Ideal) ℓ) (c : Dev nD)

/-- One entry of the region's result, from the three arrays the region reads. -/
def regionEntry (A : Vec Ideal S8x8 .f32) (B : Vec Ideal S8x32768 .f32) (X : Vec Ideal S8x1048576 .f32)
    (r : Fin 8) (col : Fin 1048576) : EReal :=
  max ((∑ j : Fin 8, A (ix2 r j) * X (ix2 j col))
    + B (ix2 r (⟨col.val % 32768, Nat.mod_lt _ (by decide)⟩ : Fin 32768))) 0

/-- The region's result as one array. -/
def regionOut (A : Vec Ideal S8x8 .f32) (B : Vec Ideal S8x32768 .f32) (X : Vec Ideal S8x1048576 .f32) :
    Vec Ideal S8x1048576 .f32 :=
  fun i => regionEntry A B X (i 0) (i 1)

theorem regionOut_apply (A : Vec Ideal S8x8 .f32) (B : Vec Ideal S8x32768 .f32) (X : Vec Ideal S8x1048576 .f32)
    (r : Fin 8) (col : Fin 1048576) : regionOut A B X (ix2 r col) = regionEntry A B X r col := rfl

/-- Where each window's block sits at step t: the two whole-array windows at block (0, 0), the input's and the
    result's column blocks at block (0, t). Decided over the 32 steps. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem step_lt (t : Fin cfg0.N) : t.val < 32 := t.isLt.trans_eq N_0

/-- Column l of step t's block is column 32768·t + l of the array. -/
theorem col_lt (t : Fin cfg0.N) (l : Fin 32768) : 32768 * t.val + l.val < 1048576 := by
  have := step_lt t; omega

/-- The left factor's block at any step is the whole 8×8 array. -/
theorem left_block (t : Fin cfg0.N) (r j : Fin 8) :
    (iblk m c 0 t : Vec Ideal S8x8 .f32) (ix2 r j) = (V m c main_v10 : Vec Ideal S8x8 .f32) (ix2 r j) := by
  obtain ⟨e0, e1, -⟩ := block_indices t
  unfold iblk
  rw [View.read_apply]
  show V m c main_v10 (((cfg0.win 0).blk t).view.emb (ix2 r j)) = V m c main_v10 (ix2 r j)
  refine congrArg _ (funext fun a => Fin.ext ?_)
  match a with
  | ⟨0, _⟩ => show win0_0.index t (0 : Fin 2) * 8 + 1 * r.val = r.val; rw [e0]; omega
  | ⟨1, _⟩ => show win0_0.index t (1 : Fin 2) * 8 + 1 * j.val = j.val; rw [e1]; omega

/-- The bias block at any step is the whole 8×32768 array. -/
theorem bias_block (t : Fin cfg0.N) (r : Fin 8) (l : Fin 32768) :
    (iblk m c 1 t : Vec Ideal S8x32768 .f32) (ix2 r l) = (V m c main_v18 : Vec Ideal S8x32768 .f32) (ix2 r l) := by
  obtain ⟨-, -, e0, e1, -⟩ := block_indices t
  unfold iblk
  rw [View.read_apply]
  show V m c main_v18 (((cfg0.win 1).blk t).view.emb (ix2 r l)) = V m c main_v18 (ix2 r l)
  refine congrArg _ (funext fun a => Fin.ext ?_)
  match a with
  | ⟨0, _⟩ => show win0_1.index t (0 : Fin 2) * 8 + 1 * r.val = r.val; rw [e0]; omega
  | ⟨1, _⟩ => show win0_1.index t (1 : Fin 2) * 32768 + 1 * l.val = l.val; rw [e1]; omega

/-- The transposed input's block at step t is its columns 32768·t … 32768·t + 32767. -/
theorem input_block (t : Fin cfg0.N) (j : Fin 8) (l : Fin 32768) :
    (iblk m c 2 t : Vec Ideal S8x32768 .f32) (ix2 j l)
      = (V m c main_v13 : Vec Ideal S8x1048576 .f32) (ix2 j (⟨32768 * t.val + l.val, col_lt t l⟩ : Fin 1048576)) := by
  obtain ⟨-, -, -, -, e0, e1, -⟩ := block_indices t
  unfold iblk
  rw [View.read_apply]
  show V m c main_v13 (((cfg0.win 2).blk t).view.emb (ix2 j l)) = V m c main_v13 (ix2 j _)
  refine congrArg _ (funext fun a => Fin.ext ?_)
  match a with
  | ⟨0, _⟩ => show win0_2.index t (0 : Fin 2) * 8 + 1 * j.val = j.val; rw [e0]; omega
  | ⟨1, _⟩ => show win0_2.index t (1 : Fin 2) * 32768 + 1 * l.val = 32768 * t.val + l.val; rw [e1]; omega

/-- Entry (r, l) of the result's block at step t is entry (r, 32768·t + l) of the result array. -/
theorem result_block_emb (t : Fin cfg0.N) (r : Fin 8) (l : Fin 32768) :
    ((cfg0.win 3).blk t).view.emb (ix2 r l) = ix2 r (⟨32768 * t.val + l.val, col_lt t l⟩ : Fin 1048576) := by
  obtain ⟨-, -, -, -, -, -, e0, e1⟩ := block_indices t
  refine funext fun a => Fin.ext ?_
  match a with
  | ⟨0, _⟩ => show win0_3.index t (0 : Fin 2) * 8 + 1 * r.val = r.val; rw [e0]; omega
  | ⟨1, _⟩ => show win0_3.index t (1 : Fin 2) * 32768 + 1 * l.val = 32768 * t.val + l.val; rw [e1]; omega

/-- What step t writes back is block t of the one function of the three arrays. -/
theorem flushed_eq (t : Fin cfg0.N) :
    (dats m 0 c).flushed 3 t
      = ((cfg0.win 3).blk t).view.read (Elt Ideal) (regionOut (V m c main_v10) (V m c main_v18) (V m c main_v13)) := by
  show (cfg0.win 3).cut (grid0.coords t) ((dats m 0 c).after 3 t) = _
  rw [after0_3]
  funext y
  obtain ⟨r, l, rfl⟩ : ∃ (r : Fin 8) (l : Fin 32768), y = ix2 r l := ⟨y 0, y 1, eq_ix2 y⟩
  rw [View.read_apply, result_block_emb, regionOut_apply]
  show out0_3 (iblk m c 0 t) (iblk m c 1 t) (iblk m c 2 t) (ix2 r l) = _
  refine (block_apply (iblk m c 0 t) (iblk m c 1 t) (iblk m c 2 t) r l).trans ?_
  unfold regionEntry
  have hl : (⟨(32768 * t.val + l.val) % 32768, Nat.mod_lt _ (by decide)⟩ : Fin 32768) = l := Fin.ext (by
    show (32768 * t.val + l.val) % 32768 = l.val
    have := l.isLt; omega)
  rw [hl, bias_block m c t r l]
  refine congrArg₂ max (congrArg₂ (· + ·) (Finset.sum_congr rfl fun j _ => ?_) rfl) rfl
  rw [left_block m c t r j, input_block m c t j l]

/-- An index of the result array is in step t's block iff each coordinate is in the block's range on its axis. -/
theorem mem_block (t : Fin cfg0.N) (i : S8x1048576.Idx) :
    i ∈ ((cfg0.win 3).blk t).view.set ↔ ∀ a : Fin 2, win0_3.index t a * S8x32768.size a ≤ (i a).val
      ∧ (i a).val < win0_3.index t a * S8x32768.size a + S8x32768.size a := by
  show i ∈ ((View.whole main_v19).slice (win0_3.rect t)).set ↔ _
  rw [View.set_slice_whole, Rect.mem_set_unit]
  exact Iff.rfl

/-- Column col of the result array is written by step col / 32768. -/
theorem covered (i : S8x1048576.Idx) :
    ∃ t : Fin cfg0.N, (cfg0.win 3).flush t = true ∧ i ∈ ((cfg0.win 3).blk t).view.set := by
  have h0 : (i 0).val < 8 := (i 0).isLt
  have h1 : (i 1).val < 1048576 := (i 1).isLt
  have hN : cfg0.N = 32 := N_0
  let t : Fin cfg0.N := ⟨(i 1).val / 32768, by rw [hN]; omega⟩
  obtain ⟨-, -, -, -, -, -, e0, e1⟩ := block_indices t
  refine ⟨t, flush0_3 t, ?_⟩
  rw [mem_block]
  intro a
  match a with
  | ⟨0, _⟩ =>
    show win0_3.index t (0 : Fin 2) * 8 ≤ (i 0).val ∧ (i 0).val < win0_3.index t (0 : Fin 2) * 8 + 8
    rw [e0]; omega
  | ⟨1, _⟩ =>
    show win0_3.index t (1 : Fin 2) * 32768 ≤ (i 1).val ∧ (i 1).val < win0_3.index t (1 : Fin 2) * 32768 + 32768
    rw [e1]
    show (i 1).val / 32768 * 32768 ≤ (i 1).val ∧ (i 1).val < (i 1).val / 32768 * 32768 + 32768
    omega

/-- The region's result array after the run. -/
theorem final : (dats m 0 c).arrAt 3 cfg0.N = regionOut (V m c main_v10) (V m c main_v18) (V m c main_v13) :=
  (dats m 0 c).arrAt_eq_of_cover 3 (regionOut (V m c main_v10) (V m c main_v18) (V m c main_v13))
    (fun t _ => flushed_eq m c t) (covered)

end Cert.ReferenceIdeal.Val
end
-- ==== Proof.RTail.lean ====
/-
  The host's three layout operations after the region, read entry by entry.

  The region's result Y has shape [8, 1048576]. The host transposes it, splits each row of eight into two rows of four,
  and regroups the flat rows sixteen at a time: entry (b, t, c') of the final [131072, 16, 4] array is flat row
  16·b + t, entry c'; that flat row is half t mod 2 of the row 8·b + t/2 of eight; so it is Y at row 4·(t mod 2) + c',
  column 8·b + t/2.
-/
import proofs.«136572_g2000209335200470_pallasbulk_1332_3_alg».proof.Proof.Gen.ReferenceIdeal.Frame
import proofs.«136572_g2000209335200470_pallasbulk_1332_3_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.ReferenceIdeal Cert.ReferenceIdeal.Gen Cert.WeightLayer

namespace Cert.ReferenceIdeal.Val

variable (m : (ℓ : Loc nD τ sig) → Buf (Elt Ideal) ℓ) (c : Dev nD)

/-- The three operations as one function of the region's result. -/
def unfoldRows (Y : Vec Ideal S8x1048576 .f32) : Vec Ideal S131072x16x4 .f32 :=
  shapeCast S131072x16x4
    (shapeCast S2097152x4 (transpose S1048576x8 [1, 0] Y Facts₀.transposes_S8x1048576_S1048576x8_1_0)
      Facts₀.shapeCasts_S1048576x8_S2097152x4)
    Facts₀.shapeCasts_S2097152x4_S131072x16x4

/-- Entry (b, t, c') of the final array is the region's result at row 4·(t mod 2) + c', column 8·b + t/2. -/
theorem unfoldRows_apply (Y : Vec Ideal S8x1048576 .f32) (b : Fin 131072) (t : Fin 16) (c' : Fin 4) :
    unfoldRows Y (ix3 b t c')
      = Y (ix2 (at8 (⟨t.val % 2, by omega⟩ : Fin 2) c') (⟨8 * b.val + t.val / 2, by omega⟩ : Fin 1048576)) := by
  unfold unfoldRows
  refine (shapeCast_apply _ _ (ix3 b t c') (ix2 (⟨16 * b.val + t.val, by omega⟩ : Fin 2097152) c') ?_).trans ?_
  · rw [Shape.rowMajor_val_two, Shape.rowMajor_val_three]
    show (16 * b.val + t.val) * 4 + c'.val = (b.val * 16 + t.val) * 4 + c'.val
    omega
  refine (shapeCast_apply _ _ (ix2 (⟨16 * b.val + t.val, by omega⟩ : Fin 2097152) c')
    (ix2 (⟨8 * b.val + t.val / 2, by omega⟩ : Fin 1048576) (at8 (⟨t.val % 2, by omega⟩ : Fin 2) c')) ?_).trans ?_
  · rw [Shape.rowMajor_val_two, Shape.rowMajor_val_two]
    show (8 * b.val + t.val / 2) * 8 + (4 * (t.val % 2) + c'.val) = (16 * b.val + t.val) * 4 + c'.val
    omega
  exact transpose_apply _ _ _
    (ix2 (⟨8 * b.val + t.val / 2, by omega⟩ : Fin 1048576) (at8 (⟨t.val % 2, by omega⟩ : Fin 2) c'))
    (ix2 (at8 (⟨t.val % 2, by omega⟩ : Fin 2) c') (⟨8 * b.val + t.val / 2, by omega⟩ : Fin 1048576))
    (fun a => match a with | ⟨0, _⟩ => rfl | ⟨1, _⟩ => rfl)

/-- What the program's last array holds at the end, once the region's result array is known to be G. -/
theorem result_of (G : Vec Ideal S8x1048576 .f32) (hG : (dats m 0 c).arrAt 3 cfg0.N = G) :
    Pipeline.afterTail₀ cfgs (dats m) 0 (V0 m) [hostOps1] c main_v22 = unfoldRows G := by
  have e : Pipeline.withArrays spec0 c (V0 m c) (fun w => (dats m 0 c).arrAt w cfg0.N) (Proc.devRef .tc main_v19) = G :=
    (Pipeline.withArrays_arr spec0 launch0.win.arr_inj c _ _ 3).trans hG
  unfold Pipeline.afterTail₀
  show StableHlo.after hostOps1 _ (Proc.devRef .tc main_v22) = _
  after_results
  exact congrArg unfoldRows e

end Cert.ReferenceIdeal.Val
end
-- ==== Proof.RRun.lean ====
/-
  The reference program computes the layer.

  At result entry (b, t, c') the host's last three operations read the region's result at row 4·p + c', column
  col = 8·b + t/2, with p = t mod 2. There the region holds max( ∑ j < 8, A(4·p + c', j) · X(j, col) + B(4·p + c', col mod 32768), 0 ).
  The left factor A is block-diagonal with the transposed parameter product in both diagonal blocks, so the 8-term
  sum is the 4-term sum of mixT(c', k) · X(4·p + k, col); X(4·p + k, col) is the input at flat row 2·col + p = 16·b + t,
  entry k; and B(4·p + c', col mod 32768) is the bias at row (2·(col mod 32768) + p) mod 16 = t, entry c', because
  2·32768 is a multiple of 16. That is the layer's entry (b, t, c').
-/
import proofs.«136572_g2000209335200470_pallasbulk_1332_3_alg».proof.Proof.Gen.ReferenceIdeal.Frame
import proofs.«136572_g2000209335200470_pallasbulk_1332_3_alg».proof.Proof.Spec
import proofs.«136572_g2000209335200470_pallasbulk_1332_3_alg».proof.Proof.RMix
import proofs.«136572_g2000209335200470_pallasbulk_1332_3_alg».proof.Proof.RHost
import proofs.«136572_g2000209335200470_pallasbulk_1332_3_alg».proof.Proof.RArray
import proofs.«136572_g2000209335200470_pallasbulk_1332_3_alg».proof.Proof.RTail
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Cert.ReferenceIdeal Cert.ReferenceIdeal.Gen Cert.WeightLayer

namespace Cert.ReferenceIdeal.Val

/-- One entry of the region's result, in row 4·p + c' and column col, through the specification's sums: the flat input
    row 2·col + p is (b, t), and the bias row of column col mod 32768 is t. -/
theorem regionEntry_eq (m : (ℓ : Loc nD τ sig) → Buf (Elt Ideal) ℓ) (c : Dev nD)
    (p : Fin 2) (c' : Fin 4) (col : Fin 1048576) (b : Fin 131072) (t : Fin 16)
    (hb : (2 * col.val + p.val) / 16 = b.val) (ht : (2 * col.val + p.val) % 16 = t.val)
    (ht' : (2 * (col.val % 32768) + p.val) % 16 = t.val) :
    regionEntry (V m c main_v10) (V m c main_v18) (V m c main_v13) (at8 p c') col
      = entry (m ((c : Thread nD τ).loc main_arg0)) (m ((c : Thread nD τ).loc main_arg1)) (m ((c : Thread nD τ).loc main_arg2)) (m ((c : Thread nD τ).loc main_arg3)) b t c' := by
  have eb : (⟨(2 * col.val + p.val) / 16, by omega⟩ : Fin 131072) = b := Fin.ext hb
  have et : (⟨(2 * col.val + p.val) % 16, by omega⟩ : Fin 16) = t := Fin.ext ht
  have et' : (⟨(2 * (⟨col.val % 32768, Nat.mod_lt _ (by decide)⟩ : Fin 32768).val + p.val) % 16, by omega⟩ : Fin 16) = t :=
    Fin.ext ht'
  unfold regionEntry entry
  refine congrArg₂ max (congrArg₂ (· + ·) ?_ ?_) rfl
  · refine (blockdiag_sum (fun k => mixT (m ((c : Thread nD τ).loc main_arg1)) (m ((c : Thread nD τ).loc main_arg2)) c' k)
      (fun j => (V m c main_v13 : Vec Ideal S8x1048576 .f32) (ix2 j col))
      (fun j => (V m c main_v10 : Vec Ideal S8x8 .f32) (ix2 (at8 p c') j)) p
      (fun q k => mix_apply m c p q c' k)).trans ?_
    refine Finset.sum_congr rfl fun k _ => congrArg _ ?_
    refine (xT_apply m c p k col).trans ?_
    rw [eb, et]
  · refine (biasT_apply m c p c' (⟨col.val % 32768, Nat.mod_lt _ (by decide)⟩ : Fin 32768)).trans ?_
    rw [et']

/-- The program's last array, entry by entry, is the layer of the four arguments. -/
theorem result_is_layer (m : (ℓ : Loc nD τ sig) → Buf (Elt Ideal) ℓ) (c : Dev nD) :
    unfoldRows (regionOut (V m c main_v10) (V m c main_v18) (V m c main_v13))
      = layer (m ((c : Thread nD τ).loc main_arg0)) (m ((c : Thread nD τ).loc main_arg1)) (m ((c : Thread nD τ).loc main_arg2)) (m ((c : Thread nD τ).loc main_arg3)) := by
  funext i
  obtain ⟨b, t, c', rfl⟩ : ∃ (b : Fin 131072) (t : Fin 16) (c' : Fin 4), i = ix3 b t c' := ⟨i 0, i 1, i 2, eq_ix3 i⟩
  rw [unfoldRows_apply, regionOut_apply, layer_apply]
  have hb := b.isLt
  have ht := t.isLt
  exact regionEntry_eq m c (⟨t.val % 2, by omega⟩ : Fin 2) c' (⟨8 * b.val + t.val / 2, by omega⟩ : Fin 1048576) b t
    (by show (2 * (8 * b.val + t.val / 2) + t.val % 2) / 16 = b.val; omega)
    (by show (2 * (8 * b.val + t.val / 2) + t.val % 2) % 16 = t.val; omega)
    (by show (2 * ((8 * b.val + t.val / 2) % 32768) + t.val % 2) % 16 = t.val; omega)

/-- The run of the reference program: its result array is the layer of the four arguments, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = Cert.WeightLayer.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v22 (Pipeline.mem_restRefs_of main_v22 (by decide) (by decide))).trans
        ((result_of m c _ (final m c)).trans (result_is_layer m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.ReferenceIdeal.Val
end
-- ==== Proof.lean ====
/-
  The weight layer relu(x · (a · w) + bias) computed two ways, and the proof that the two are one function.

  The kernel reads the input through the transposed view [T, C, B], and at each of 32 grid points multiplies, for every
  one of the 16 window positions t, the 4×4 matrix mixT = (a · w)ᵀ into the [4, 4096] slab of that position, adds the
  bias column of position t and clamps at zero; the result is transposed back. The reference packs two consecutive rows
  of the flattened [B·T, C] input into one column of an [8, B·T/2] array, multiplies by the 8×8 block-diagonal matrix
  with mixT in both diagonal blocks, adds the bias tiled along the columns, clamps at zero, and unpacks. Read on the
  extended reals, both results are, entry by entry,

      layer(b, t, c) = max( ∑ k < 4, mixT(c, k) · x(b, t, k) + bias(t, c), 0 )

  (Proof/Spec.lean). The kernel's side is Proof/KRun.lean, the reference's Proof/RRun.lean; the only law of sums between
  them is that a row of the block-diagonal matrix times a packed column is the 4-term product over the row's own half
  of the column, the other half meeting the factor 0 (Spec.lean `blockdiag_sum`; 0 · y = 0 for every extended real, so
  the inputs' finiteness is not used). The three frames are the generated ones; the idealization rewrote nothing, so
  `preserves` has nothing to state.
-/
import proofs.«136572_g2000209335200470_pallasbulk_1332_3_alg».proof.Defs
import proofs.«136572_g2000209335200470_pallasbulk_1332_3_alg».proof.Proof.Gen.Kernel
import proofs.«136572_g2000209335200470_pallasbulk_1332_3_alg».proof.Proof.Gen.Kernel.Frame
import proofs.«136572_g2000209335200470_pallasbulk_1332_3_alg».proof.Proof.Gen.KernelIdeal
import proofs.«136572_g2000209335200470_pallasbulk_1332_3_alg».proof.Proof.Gen.KernelIdeal.Frame
import proofs.«136572_g2000209335200470_pallasbulk_1332_3_alg».proof.Proof.Gen.ReferenceIdeal
import proofs.«136572_g2000209335200470_pallasbulk_1332_3_alg».proof.Proof.Gen.ReferenceIdeal.Frame
import proofs.«136572_g2000209335200470_pallasbulk_1332_3_alg».proof.Proof.Gen.Pre_finite_inputs
import proofs.«136572_g2000209335200470_pallasbulk_1332_3_alg».proof.Proof.Spec
import proofs.«136572_g2000209335200470_pallasbulk_1332_3_alg».proof.Proof.KRun
import proofs.«136572_g2000209335200470_pallasbulk_1332_3_alg».proof.Proof.RRun
import Idealize.ShloMosaic.Adequacy
import Idealize.ShloMosaic.Init

noncomputable section

namespace Cert.Proof

open Idealize.ShloMosaic Idealize.SL.Sem

/-- Each program runs to the end without a fault and leaves its four argument arrays as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- No operation of the kernel was rewritten when it was read on the extended reals. -/
theorem preserves : Cert.preserves_Kernel_KernelIdeal := trivial

/-- From memories that agree on the four arguments, both programs end with the layer of those arguments in their result
    array: the kernel's run gives it of its own memory, the reference's of its own, and the two memories agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
